-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x100 : Shape := ⟨2, ![4096, 100]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x100 : S_.BroadcastsInDim S4096x100 (![] : Fin 0 → Fin S4096x100.rank)
  reducesTo_S4096x100_S_d0_1 : S4096x100.ReducesTo [0, 1] S_

variable [Facts]

def fn {F : FTy → Type} [FloatOps F] (main_arg0 : FVec F S4096x512 .f32) (main_arg1 : FVec F S4096x100 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x100 .f32 := Host.absf main_arg1
  let main_cst_0 : FVec F S_ .f32 := constant S_ .f32 0x7F800000#32
  let main_v5 : FVec F S4096x100 .f32 := broadcastInDim S4096x100 ![] bcast_S_S4096x100 main_cst_0
  let main_v6 : IVec S4096x100 1 := cmpf .olt main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  let main_cst_2 : FVec F S_ .f32 := constant S_ .f32 0x00000000#32
  let main_v9 : FVec F S4096x100 .f32 := broadcastInDim S4096x100 ![] bcast_S_S4096x100 main_cst_2
  let main_v10 : IVec S4096x100 1 := cmpf .oeq main_arg1 main_v9
  let main_cst_3 : FVec F S_ .f32 := constant S_ .f32 0x3F800000#32
  let main_v11 : FVec F S4096x100 .f32 := broadcastInDim S4096x100 ![] bcast_S_S4096x100 main_cst_3
  let main_v12 : IVec S4096x100 1 := cmpf .oeq main_arg1 main_v11
  let main_v13 : IVec S4096x100 1 := ori main_v10 main_v12
  let main_c_4 : IVec S_ 1 := constantI S_ 1 1#1
  let main_v14 : IVec S_ 1 := (fun x v => Host.reduce IntOp.andi x v reducesTo_S4096x100_S_d0_1 h_S_) main_v13 main_c_4
  let main_v15 : IVec S_ 1 := andi main_v8 main_v14
  main_v15
-- ==== Kernel.lean ====
abbrev S4096x512 : Shape := ⟨2, ![4096, 512]⟩
abbrev S4096x100 : Shape := ⟨2, ![4096, 100]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S128x512 : Shape := ⟨2, ![128, 512]⟩
abbrev S128x128 : Shape := ⟨2, ![128, 128]⟩
abbrev S128 : Shape := ⟨1, ![128]⟩
abbrev S128x4096 : Shape := ⟨2, ![128, 4096]⟩
abbrev S1x4096 : Shape := ⟨2, ![1, 4096]⟩
abbrev S128x1 : Shape := ⟨2, ![128, 1]⟩

abbrev nBuf : Space → Nat
  | .hbm => 18
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x100, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .bf16⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S4096x512, .f32⟩
  | .local _ .vmem, ⟨3, _⟩ => ⟨S128x128, .bf16⟩
  | .local _ .vmem, ⟨4, _⟩ => ⟨S128x128, .bf16⟩
  | .local _ .vmem, ⟨5, _⟩ => ⟨S4096x128, .bf16⟩
  | .local _ .vmem, ⟨6, _⟩ => ⟨S128, .f32⟩
  | .local _ .vmem, ⟨7, _⟩ => ⟨S128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  pads_S4096x100_S4096x128_000_0280 : S4096x100.Pads (![0, 0] : Fin 2 → Nat) ![0, 28] ![0, 0] S4096x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x4096_d1_w32 : S1x4096.Iotas .tc 32 [1]
  iota_S128x1_d0_w32 : S128x1.Iotas .tc 32 [0]
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  inb_S128_S128_0 : ∀ a, (![0] : Fin 1 → Nat) a + S128.size a ≤ S128.size a
  h_S128 : 0 < S128.numel
  reducesTo_S4096_S_d0 : S4096.ReducesTo [0] S_
  dot_S128x512_S4096x512_S128x4096_1_1_0_0_n_n_wf : DotDims.WF S128x512 S4096x512 S128x4096 [1] [1] [0] [0] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .bf16 = 32 ∨ (Rect.block (s := S4096x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S4096.size a
  hwx0_4 : ∀ i : grid0.Coords, EltTy.bits .f32 = 32 ∨ (Rect.block (s := S4096) S128.size (cc0_transform_4 i) (hinb0_4 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_v2) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x100 : Shape := ⟨2, ![4096, 100]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩
abbrev S100x4096 : Shape := ⟨2, ![100, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x100, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S512x4096, .f32⟩
  | .hbm, ⟨10, _⟩ => ⟨S4096x4096, .f32⟩
  | .hbm, ⟨11, _⟩ => ⟨S100x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S4096x4096, .i1⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1, .f32⟩
  | .hbm, ⟨30, _⟩ => ⟨S4096x4096, .f32⟩
  | .hbm, ⟨31, _⟩ => ⟨S4096x4096, .i1⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S4096x4096, .f32⟩
  | .hbm, ⟨44, _⟩ => ⟨S4096x4096, .i1⟩
  | .hbm, ⟨45, _⟩ => ⟨S4096x4096, .i1⟩
  | .hbm, ⟨46, _⟩ => ⟨S_, .i1⟩
  | .hbm, ⟨47, _⟩ => ⟨S4096, .i1⟩
  | .hbm, ⟨48, _⟩ => ⟨S_, .i1⟩
  | .hbm, ⟨49, _⟩ => ⟨S4096, .i1⟩
  | .hbm, ⟨50, _⟩ => ⟨S4096, .i1⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_call1_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_call2_v0 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_14 : Ref sig .tc := ⟨.hbm, 71, rfl⟩
abbrev main_call4_v0 : Ref sig .tc := ⟨.hbm, 72, rfl⟩
abbrev main_call4_v1 : Ref sig .tc := ⟨.hbm, 73, rfl⟩
abbrev main_v45 : Ref sig .tc := ⟨.hbm, 74, rfl⟩
abbrev main_cst_15 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_call5_v0 : Ref sig .tc := ⟨.hbm, 87, rfl⟩
abbrev main_call5_v1 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_cst_20 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  transposes_S4096x100_S100x4096_1_0 : S4096x100.Transposes [1, 0] S100x4096
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []
  dot_S4096x100_S100x4096_S4096x4096_1_0_0_1_n_n_wf : DotDims.WF S4096x100 S100x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x100_S100x4096_S4096x4096_1_0_0_1_n_n : DotDims S4096x100 S100x4096 S4096x4096 where
  lhsContracting := [1]
  rhsContracting := [0]
  lhsNonContracting := [0]
  rhsNonContracting := [1]
  lhsBatch := []
  rhsBatch := []
  wf := dot_S4096x100_S100x4096_S4096x4096_1_0_0_1_n_n_wf

class Facts : Prop extends Facts₀ where

variable [Facts]
-- ==== Proof.BitsRegion.lean ====
/-
  The kernel region of the kernel as printed: the pallas_call reads the normalised features through two windows (a block of 128 rows,
  and the whole array) and the padded labels through two more, and writes 128 row losses per grid point.  This module
  states what one run of the body leaves in the output's staging buffer as a function of the four input blocks, the
  body's triple, and the proof data of the pipeline: every input window's buffer holds its block of the array as
  the host operations before the region left it, the two windows on one array holding it at a half share each.
-/
import proofs.«140503_j48515950576321_2_alg».proof.Proof.Gen.Kernel.Launch
import proofs.«140503_j48515950576321_2_alg».proof.Proof.Gen.Kernel.Skeleton
import proofs.«140503_j48515950576321_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host operations before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window whose
    block index does not move keeps the block the first point fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x512 := Rect.unit (s := S128x512) ![0, 0] S128x512.size inb_S128x512_S128x512_0_0
abbrev r0_1 : Rect S4096x512 := Rect.unit (s := S4096x512) ![0, 0] S4096x512.size inb_S4096x512_S4096x512_0_0
abbrev r0_2 : Rect S128x128 := Rect.unit (s := S128x128) ![0, 0] S128x128.size inb_S128x128_S128x128_0_0
abbrev r0_3 : Rect S4096x128 := Rect.unit (s := S4096x128) ![0, 0] S4096x128.size inb_S4096x128_S4096x128_0_0
abbrev r0_4 : Rect S128 := Rect.unit (s := S128) ![0] S128.size inb_S128_S128_0

/-- The 128 row losses of one grid point as the body computes them from the four blocks it loads. -/
def rowLoss (i : grid0.Coords) (x0 : Vec F S128x512 .f32) (x1 : Vec F S4096x512 .f32) (x2 : Vec F S128x128 .bf16) (x3 : Vec F S4096x128 .bf16) : FVec F S128 .f32 :=
  k0_pay1 (k0_pay2 (View.ld x0 r0_0) (View.ld x1 r0_1)) (k0_pay4 i (View.ld x0 r0_0) (View.ld x1 r0_1) (View.ld x2 r0_2) (View.ld x3 r0_3))
    (k0_pay5 i (View.ld x0 r0_0) (View.ld x1 r0_1) (View.ld x2 r0_2) (View.ld x3 r0_3)) (k0_pay6 i (View.ld x0 r0_0) (View.ld x1 r0_1) (View.ld x2 r0_2) (View.ld x3 r0_3))

/-- What the output window's staging buffer holds after the body: its one store, of the whole buffer. -/
def out0_4 (i : grid0.Coords) (x0 : Vec F S128x512 .f32) (x1 : Vec F S4096x512 .f32) (x2 : Vec F S128x128 .bf16) (x3 : Vec F S4096x128 .bf16) : Vec F S128 .f32 :=
  View.canon [⟨r0_4, rowLoss i x0 x1 x2 x3⟩]

theorem cover0_4 (p0 : Vec F S128 .f32) (y : S128.Idx) :
    ∃ pc ∈ ([⟨r0_4, p0⟩] : List (View.Piece (Elt F) S128 .f32)), y ∈ pc.1.set :=
  View.cover_of_tiled [⟨r0_4, p0⟩] S128.size (by rfl) y

/-! ## The body's triple -/

set_option maxHeartbeats 1000000 in
/-- The body on whole staging memrefs, the inputs' at contents `xW` and the output's at anything, runs to the
    continuation holding the inputs' as they were and the output's at `out0_4` of the inputs'. -/
theorem sound_kernel (c : Dev nD) (E : Set ℕ) (i : grid0.Coords) (arg1 : Memref sig .tc .vmem S128x512 .f32) (harg1 : arg1.IsWhole) (arg2 : Memref sig .tc .vmem S4096x512 .f32) (harg2 : arg2.IsWhole) (arg3 : Memref sig .tc .vmem S128x128 .bf16) (harg3 : arg3.IsWhole) (arg4 : Memref sig .tc .vmem S4096x128 .bf16) (harg4 : arg4.IsWhole) (arg5 : Memref sig .tc .vmem S128 .f32) (harg5 : arg5.IsWhole)
    (x0 : Vec F S128x512 .f32) (x1 : Vec F S4096x512 .f32) (x2 : Vec F S128x128 .bf16) (x3 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__msl_kernel i arg1 harg1 arg2 harg2 arg3 harg3 arg4 harg4 arg5 harg5) K := by
  simp only [cc0__msl_kernel_eq_skeleton]; unfold cc0__msl_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the input blocks; the invariant is the scoped rest; the
    two windows on one array hold it at a half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => (fullShare : PosShare TreeShare).left
    | ⟨1, _⟩ => (fullShare : PosShare TreeShare).right
    | ⟨2, _⟩ => (fullShare : PosShare TreeShare).left
    | ⟨3, _⟩ => (fullShare : PosShare TreeShare).right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Region

end
-- ==== Proof.LibSharedLaunch.lean ====
/-
  A kernel region whose input windows read ONE array through several windows, inside an @main that has host
  operations before and after the region.

  Mathematics of the statement.  The pipeline's proof data holds every window's array at a share of its own, so when
  two input windows name one buffer the buffer's full points-to has to be dealt between them at the region's entry
  and gathered again at its exit, before the host operations after the region (which run over whole buffers) can go
  on.  The theorem below takes those two moves as hypotheses — `hsplit0` (entry), `hjoin` (exit) and `hsplitN`
  (the arrays dealt once more after the last host operation, so that the region rule's accounting closes) — and
  concludes that the program runs to the end with every buffer that is no window's array at the value the host
  operations after the region compute from the exit contents `Wx`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The run of `host operations; region; host operations` when windows of the region may share an array: every
    buffer that bypasses the region ends at what the later host operations make of the exit contents `Wx`, which
    agree with the entry contents `V₀` off the arrays (`hWx`). -/
theorem θ_run_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit0 : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => Wx c (Proc.devRef .tc b)) : sProp 𝕄))
    (hWx : ∀ c, ∀ b ∈ restRefs sig (cfg).spec, Wx c (Proc.devRef .tc b) = V₀ c (Proc.devRef .tc b))
    (hsplitN : ∀ c, (arrBufs (cfg).spec c (fun b => StableHlo.after opss.flatten (Wx c) (Proc.devRef .tc b)) : sProp 𝕄)
      ⊢ (dats p c).arrays ((dats p c).arrAt · (cfg).N))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (fun r => ∀ c : Dev nD, ∀ b ∈ restRefs sig (cfg).spec,
      r.2.mem ((c.tc : Thread nD τ).loc b) = StableHlo.after opss.flatten (Wx c) (Proc.devRef .tc b)) := by
  classical
  refine θ_run_region_noSem_pf_tail (fun q => (cfgs q).toPCfg (Val := Val)) (fun q => (cfgs q).toPCfg_adm) dats () hinj p hw
    (PreFacts.none _) emb₁ defs₀ 𝒱₀ m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit0) (hpf := fun _ k => k.elim0)
    (X := fun _ => iprop(emp)) (Y := fun _ => iprop(emp))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wx c) (Proc.devRef .tc b)))
    (hX := fun c => by
      iintro H
      isplitr; · iempintro
      iexact H)
    (hin := fun c => (show _ ⊢ (scopedRest (Ix := Unit) (Name := ℕ) (U := UR sig nD τ) (Lvl := ℕ) (Val := Val) (cfg).spec c : sProp 𝕄) by
      iintro ⟨-, -, HR⟩; iexact HR).trans (hin c))
    (hout := fun c => (hout c).trans (by
      iintro HR
      isplitr; · iempintro
      iexact HR))
    (htail := fun c Q' => ?_)
    (QY := fun c s => ∀ b ∈ restRefs sig (cfg).spec,
      s.mem ((c.tc : Thread nD τ).loc b) = StableHlo.after opss.flatten (Wx c) (Proc.devRef .tc b))
    (hY := fun c s' => by
      rw [unscopedRestP_none]
      unfold unscopedRest
      iintro ⟨-, HU, HSI⟩
      imodintro
      iapply (pointsTo_read_all (restRefs sig (cfg).spec) (fun b => (c.tc : Thread nD τ).loc b)
        (fun b => StableHlo.after opss.flatten (Wx c) (Proc.devRef .tc b)) s')
      isplitl [HU] <;> iassumption)
    (hQ := fun s h c => (h c).2.2)
  -- the host operations after the region: gather the arrays, run the operations over whole buffers, deal the arrays again
  rw [unscopedRestP_none, unscopedRestP_none]
  have hV : (unscopedRest (cfg).spec c (fun b => V₀ c (Proc.devRef .tc b)) : sProp 𝕄)
      = unscopedRest (cfg).spec c (fun b => Wx c (Proc.devRef .tc b)) := by
    unfold unscopedRest
    exact bigSep_congr fun b hb => by dsimp only; rw [hWx c b hb]
  have e1 : iprop((dats p c).arrays ((dats p c).arrAt · (cfg).N) ∗ (unscopedRest (cfg).spec c (fun b => V₀ c (Proc.devRef .tc b)) : sProp 𝕄))
      ⊢ (StableHlo.held (c.tc : Thread nD τ) (ucRefs τ sig) (Wx c) : sProp 𝕄) := by
    rw [← unscopedBufs_held (Ix := Unit) (Name := ℕ) (U := UR sig nD τ) (Lvl := ℕ) c (Wx c),
      unscopedBufs_split₀ cfgs p hw.arr_unscoped c, hV]
    exact sep_mono (hjoin c) .rfl
  have e2 : (StableHlo.held (c.tc : Thread nD τ) (ucRefs τ sig) (StableHlo.after opss.flatten (Wx c)) : sProp 𝕄)
      ⊢ iprop((dats p c).arrays ((dats p c).arrAt · (cfg).N)
          ∗ (unscopedRest (cfg).spec c (fun b => StableHlo.after opss.flatten (Wx c) (Proc.devRef .tc b)) : sProp 𝕄)) := by
    rw [← unscopedBufs_held (Ix := Unit) (Name := ℕ) (U := UR sig nD τ) (Lvl := ℕ) c (StableHlo.after opss.flatten (Wx c)),
      unscopedBufs_split₀ cfgs p hw.arr_unscoped c]
    exact sep_mono (hsplitN c) .rfl
  rw [← List.append_nil (opss.map StableHlo.seq)]
  iintro ⟨Hk, Hb, HA, HZ⟩
  ihave HH := e1 $$ [HA HZ]
  · isplitl [HA] <;> iassumption
  iapply (wp_seqs_then (fun q => (cfgs q).toPCfg (Val := Val)) defs₀ 𝒱₀ c (ucRefs τ sig) [] opss
    (fun ops ho op h => sub_ucRefs op (hsub ops ho op h)) hfresh (Wx c)) $$ [Hb HH]
  · isplitl [Hb] <;> iassumption
  iintro ⟨-, HH⟩
  rw [chain_nil, wp_pure]
  imodintro
  iapply Hk
  iapply e2
  iexact HH

end SharedAround

end Pipeline

end Idealize.ShloMosaic

end
-- ==== Proof.BitsLaunch.lean ====
/-
  The run of @main around the kernel region.  The region reads the normalised features through two windows and the
  padded labels through two more; at the region's entry each of those two arrays is dealt to its two windows at a half
  share each, and gathered again at the exit, where the output array holds what the 32 grid points wrote back.  The
  host operations after the region (the sum of the 4096 row losses and the division by 4096) run from those exit
  contents.  Every buffer that is no window's array ends at what those operations compute.
-/
import proofs.«140503_j48515950576321_2_alg».proof.Proof.BitsRegion
import proofs.«140503_j48515950576321_2_alg».proof.Proof.LibSharedLaunch

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: the normalised features, the padded labels, the row losses. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v4) ↦{fullShare} W main_v4)
          ∗ (((c : Thread nD τ).loc main_v5) ↦{fullShare} W main_v5)) := by
  unfold Pipeline.arrBufs
  exact bigSep_eq_bigSepL_of_eq [main_v2, main_v4, main_v5] (by decide) (by decide) _

/-- The pipeline's arrays, window by window: the two windows on the features at a half share each, the two on the
    labels likewise, the output's whole. -/
theorem arrays_eq5 (c : Dev nD) (G : (w : Fin cfg0.W) → Buf (Elt F) ((cfg0.win w).arr.view.loc (c.tc : Thread nD τ))) :
    (dats m 0 c).arrays G
      = iprop((((c : Thread nD τ).loc main_v2) ↦{(fullShare : PosShare TreeShare).left} G 0) ∗ (((c : Thread nD τ).loc main_v2) ↦{(fullShare : PosShare TreeShare).right} G 1)
          ∗ (((c : Thread nD τ).loc main_v4) ↦{(fullShare : PosShare TreeShare).left} G 2) ∗ (((c : Thread nD τ).loc main_v4) ↦{(fullShare : PosShare TreeShare).right} G 3)
          ∗ (((c : Thread nD τ).loc main_v5) ↦{fullShare} G 4)) := by
  unfold Dat.arrays
  rw [bigSep_W0, (arr_whole0 0).set_eq_univ, (arr_whole0 2).set_eq_univ, (arr_whole0 4).set_eq_univ]
  rfl

/-- Dealing and gathering: the arrays at window contents that agree on a shared array are the three buffers whole. -/
theorem arrays_iff (c : Dev nD) (G : (w : Fin cfg0.W) → Buf (Elt F) ((cfg0.win w).arr.view.loc (c.tc : Thread nD τ)))
    (W : (b : Ref sig .tc) → Buf (Elt F) ((c : Thread nD τ).loc b))
    (h0 : G 0 = W main_v2) (h1 : G 1 = W main_v2) (h2 : G 2 = W main_v4) (h3 : G 3 = W main_v4) (h4 : G 4 = W main_v5) :
    (dats m 0 c).arrays G ⊣⊢ (Pipeline.arrBufs (Ix := Unit) (Name := ℕ) (U := UR sig nD τ) (Lvl := ℕ) spec0 c W : sProp 𝕄) := by
  rw [arrays_eq5, arrBufs_eq, h0, h1, h2, h3, h4]
  constructor
  · iintro ⟨Ha, Hb, Hc, Hd, He⟩
    isplitl [Ha Hb]
    · iapply (pointsTo_share (PosShare.mem_left_op_right fullShare)).2
      isplitl [Ha] <;> iassumption
    isplitl [Hc Hd]
    · iapply (pointsTo_share (PosShare.mem_left_op_right fullShare)).2
      isplitl [Hc] <;> iassumption
    iexact He
  · refine (BIClass.sep_mono (pointsTo_share (PosShare.mem_left_op_right fullShare)).1
      (BIClass.sep_mono (pointsTo_share (PosShare.mem_left_op_right fullShare)).1 .rfl)).trans ?_
    iintro ⟨⟨Ha, Hb⟩, ⟨Hc, Hd⟩, He⟩
    isplitl [Ha]; · iexact Ha
    isplitl [Hb]; · iexact Hb
    isplitl [Hc]; · iexact Hc
    isplitl [Hd]; · iexact Hd
    iexact He

/-! ## The exit contents -/

/-- The buffer contents at the region's exit: the output array at what the grid points wrote back, every other buffer
    as the region found it. -/
def Wx (c : Dev nD) : Valuation τ sig (Elt F) := fun b =>
  if h : Proc.devRef .tc main_v5 = b then
    cast (congrArg (fun b' : DevRef τ sig => b'.ty.Contents (Elt F)) h) ((dats m 0 c).arrAt 4 cfg0.N)
  else V0 m c b

theorem Wx_out (c : Dev nD) : Wx m c (Proc.devRef .tc main_v5) = (dats m 0 c).arrAt 4 cfg0.N := by
  unfold Wx; rw [dif_pos rfl]; rfl

theorem Wx_of_ne (c : Dev nD) (b : Ref sig .tc) (hb : main_v5 ≠ b) : Wx m c (Proc.devRef .tc b) = V0 m c (Proc.devRef .tc b) := by
  unfold Wx; rw [dif_neg]; intro e; exact hb (Proc.devRef_injective _ e)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The host operations after the region write only their own four results. -/
theorem tail_keeps (W : Valuation τ sig (Elt F)) (b : Ref sig .tc) (h1 : main_cst ≠ b) (h2 : main_v6 ≠ b) (h3 : main_cst_0 ≠ b) (h4 : main_v7 ≠ b) :
    StableHlo.after (List.flatten [hostOps1]) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    exact ⟨StableHlo.devRef_ne_of_ne h1.symm, StableHlo.devRef_ne_of_ne h2.symm, StableHlo.devRef_ne_of_ne h3.symm, StableHlo.devRef_ne_of_ne h4.symm⟩))

/-! ## The run -/

theorem mem_rest_ne (b : Ref sig .tc) (hb : b ∈ Pipeline.restRefs sig spec0) (w : Fin 5) : Pipeline.arrRef spec0 w ≠ b := fun e =>
  (Finset.mem_sdiff.mp hb).2 (Finset.mem_image.mpr ⟨w, Finset.mem_univ _, e⟩)

set_option backward.isDefEq.respectTransparency.types false in
/-- Every weakly fair execution of @main terminates, and every buffer that is no window's array ends at what the host
    operations after the region compute from the exit contents. -/
theorem run_main : θ_run defs (onTc (τ := τ) (main (F := F))) (s₀ m ρ) (fun r => ∀ c : Dev nD, ∀ b ∈ Pipeline.restRefs sig spec0,
      r.2.mem ((c.tc : Thread nD τ).loc b) = StableHlo.after (List.flatten [hostOps1]) (Wx m c) (Proc.devRef .tc b)) :=
  Pipeline.θ_run_around_shared cfgs (dats m) (0 : Fin 1) defs₀ Variants.none cellOf_inj winFacts₀0 block_pos0 arr_whole0 stage_whole0 m ρ main
    (hbody := fun c => (body_obligation m c).loose) (howed := fun _ _ => rfl) (V₀ := V0 m) (Wx := Wx m) (opss := [hostOps1])
    (hsub := sfx_sub) (hfresh := sfx_fresh) (hmain := hmain m Variants.none)
    (hsplit0 := fun c => (arrays_iff m c (fun w => (dats m 0 c).arrAt w 0) (V m c)
      (A_eq m c 0) (A_eq m c 1) (A_eq m c 2) (A_eq m c 3) (A_eq m c 4)).2)
    (hjoin := fun c => (arrays_iff m c (fun w => (dats m 0 c).arrAt w cfg0.N) (fun b => Wx m c (Proc.devRef .tc b))
      (((dats m 0 c).arrAt_in 0 rfl _).trans ((A_eq m c 0).trans (Wx_of_ne m c main_v2 (by decide)).symm))
      (((dats m 0 c).arrAt_in 1 rfl _).trans ((A_eq m c 1).trans (Wx_of_ne m c main_v2 (by decide)).symm))
      (((dats m 0 c).arrAt_in 2 rfl _).trans ((A_eq m c 2).trans (Wx_of_ne m c main_v4 (by decide)).symm))
      (((dats m 0 c).arrAt_in 3 rfl _).trans ((A_eq m c 3).trans (Wx_of_ne m c main_v4 (by decide)).symm))
      (Wx_out m c).symm).1)
    (hWx := fun c b hb => Wx_of_ne m c b (mem_rest_ne b hb 4))
    (hsplitN := fun c => (arrays_iff m c (fun w => (dats m 0 c).arrAt w cfg0.N)
        (fun b => StableHlo.after (List.flatten [hostOps1]) (Wx m c) (Proc.devRef .tc b))
      (((dats m 0 c).arrAt_in 0 rfl _).trans ((A_eq m c 0).trans ((Wx_of_ne m c main_v2 (by decide)).symm.trans
        (tail_keeps (Wx m c) main_v2 (by decide) (by decide) (by decide) (by decide)).symm)))
      (((dats m 0 c).arrAt_in 1 rfl _).trans ((A_eq m c 1).trans ((Wx_of_ne m c main_v2 (by decide)).symm.trans
        (tail_keeps (Wx m c) main_v2 (by decide) (by decide) (by decide) (by decide)).symm)))
      (((dats m 0 c).arrAt_in 2 rfl _).trans ((A_eq m c 2).trans ((Wx_of_ne m c main_v4 (by decide)).symm.trans
        (tail_keeps (Wx m c) main_v4 (by decide) (by decide) (by decide) (by decide)).symm)))
      (((dats m 0 c).arrAt_in 3 rfl _).trans ((A_eq m c 3).trans ((Wx_of_ne m c main_v4 (by decide)).symm.trans
        (tail_keeps (Wx m c) main_v4 (by decide) (by decide) (by decide) (by decide)).symm)))
      ((Wx_out m c).symm.trans (tail_keeps (Wx m c) main_v5 (by decide) (by decide) (by decide) (by decide)).symm)).2)
    (hin := fun c => .rfl) (hout := fun c => .rfl)

/-! ## The arguments are kept, and the result -/

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem end_main_arg0 (c : Dev nD) :
    StableHlo.after (List.flatten [hostOps1]) (Wx m c) (Proc.devRef .tc main_arg0) = m ((c : Thread nD τ).loc main_arg0) :=
  (tail_keeps (Wx m c) main_arg0 (by decide) (by decide) (by decide) (by decide)).trans
    ((Wx_of_ne m c main_arg0 (by decide)).trans (V_main_arg0 m c))
theorem end_main_arg1 (c : Dev nD) :
    StableHlo.after (List.flatten [hostOps1]) (Wx m c) (Proc.devRef .tc main_arg1) = m ((c : Thread nD τ).loc main_arg1) :=
  (tail_keeps (Wx m c) main_arg1 (by decide) (by decide) (by decide) (by decide)).trans
    ((Wx_of_ne m c main_arg1 (by decide)).trans (V_main_arg1 m c))

/-- The program's result: the sum of the 4096 row losses the region left, over 4096. -/
theorem end_main_v7 (c : Dev nD) :
    StableHlo.after (List.flatten [hostOps1]) (Wx m c) (Proc.devRef .tc main_v7)
      = Host.divf (Host.reduceAdd ((dats m 0 c).arrAt 4 cfg0.N) (constant (F := F) S_ .f32 0x00000000#32) reducesTo_S4096_S_d0 h_S_)
          (constant (F := F) S_ .f32 0x45800000#32) := by
  show StableHlo.after hostOps1 _ (Proc.devRef .tc main_v7) = _
  after_results
  rw [Wx_out]

/-- The frame: @main runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0 (Pipeline.mem_restRefs_of main_arg0 (by decide) (by decide))).trans (end_main_arg0 m c),
     (h c main_arg1 (Pipeline.mem_restRefs_of main_arg1 (by decide) (by decide))).trans (end_main_arg1 m c)⟩) (run_main m ρ)

/-- The run with the result named. -/
theorem run_value : θ_run defs (onTc (τ := τ) (main (F := F))) ⟨m, fun _ => 0, ρ⟩ (fun r => ∀ c : Dev nD,
      r.2.mem ((c.tc : Thread nD τ).loc main_v7)
        = Host.divf (Host.reduceAdd ((dats m 0 c).arrAt 4 cfg0.N) (constant (F := F) S_ .f32 0x00000000#32) reducesTo_S4096_S_d0 h_S_)
            (constant (F := F) S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_v7 (Pipeline.mem_restRefs_of main_v7 (by decide) (by decide))).trans (end_main_v7 m c),
     (h c main_arg0 (Pipeline.mem_restRefs_of main_arg0 (by decide) (by decide))).trans (end_main_arg0 m c),
     (h c main_arg1 (Pipeline.mem_restRefs_of main_arg1 (by decide) (by decide))).trans (end_main_arg1 m c)⟩) (run_main m ρ)

end Cert.Kernel.Region

end
-- ==== Proof.IdealRegion.lean ====
/-
  The kernel region of the idealized kernel: the pallas_call reads the normalised features through two windows (a block of 128 rows,
  and the whole array) and the padded labels through two more, and writes 128 row losses per grid point.  This module
  states what one run of the body leaves in the output's staging buffer as a function of the four input blocks, the
  body's triple, and the proof data of the pipeline: every input window's buffer holds its block of the array as
  the host operations before the region left it, the two windows on one array holding it at a half share each.
-/
import proofs.«140503_j48515950576321_2_alg».proof.Proof.Gen.KernelIdeal.Launch
import proofs.«140503_j48515950576321_2_alg».proof.Proof.Gen.KernelIdeal.Skeleton
import proofs.«140503_j48515950576321_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host operations before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window whose
    block index does not move keeps the block the first point fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x512 := Rect.unit (s := S128x512) ![0, 0] S128x512.size inb_S128x512_S128x512_0_0
abbrev r0_1 : Rect S4096x512 := Rect.unit (s := S4096x512) ![0, 0] S4096x512.size inb_S4096x512_S4096x512_0_0
abbrev r0_2 : Rect S128x128 := Rect.unit (s := S128x128) ![0, 0] S128x128.size inb_S128x128_S128x128_0_0
abbrev r0_3 : Rect S4096x128 := Rect.unit (s := S4096x128) ![0, 0] S4096x128.size inb_S4096x128_S4096x128_0_0
abbrev r0_4 : Rect S128 := Rect.unit (s := S128) ![0] S128.size inb_S128_S128_0

/-- The 128 row losses of one grid point as the body computes them from the four blocks it loads. -/
def rowLoss (i : grid0.Coords) (x0 : Vec F S128x512 .f32) (x1 : Vec F S4096x512 .f32) (x2 : Vec F S128x128 .bf16) (x3 : Vec F S4096x128 .bf16) : FVec F S128 .f32 :=
  k0_pay1 (k0_pay2 (View.ld x0 r0_0) (View.ld x1 r0_1)) (k0_pay4 i (View.ld x0 r0_0) (View.ld x1 r0_1) (View.ld x2 r0_2) (View.ld x3 r0_3))
    (k0_pay5 i (View.ld x0 r0_0) (View.ld x1 r0_1) (View.ld x2 r0_2) (View.ld x3 r0_3)) (k0_pay6 i (View.ld x0 r0_0) (View.ld x1 r0_1) (View.ld x2 r0_2) (View.ld x3 r0_3))

/-- What the output window's staging buffer holds after the body: its one store, of the whole buffer. -/
def out0_4 (i : grid0.Coords) (x0 : Vec F S128x512 .f32) (x1 : Vec F S4096x512 .f32) (x2 : Vec F S128x128 .bf16) (x3 : Vec F S4096x128 .bf16) : Vec F S128 .f32 :=
  View.canon [⟨r0_4, rowLoss i x0 x1 x2 x3⟩]

theorem cover0_4 (p0 : Vec F S128 .f32) (y : S128.Idx) :
    ∃ pc ∈ ([⟨r0_4, p0⟩] : List (View.Piece (Elt F) S128 .f32)), y ∈ pc.1.set :=
  View.cover_of_tiled [⟨r0_4, p0⟩] S128.size (by rfl) y

/-! ## The body's triple -/

set_option maxHeartbeats 1000000 in
/-- The body on whole staging memrefs, the inputs' at contents `xW` and the output's at anything, runs to the
    continuation holding the inputs' as they were and the output's at `out0_4` of the inputs'. -/
theorem sound_kernel (c : Dev nD) (E : Set ℕ) (i : grid0.Coords) (arg1 : Memref sig .tc .vmem S128x512 .f32) (harg1 : arg1.IsWhole) (arg2 : Memref sig .tc .vmem S4096x512 .f32) (harg2 : arg2.IsWhole) (arg3 : Memref sig .tc .vmem S128x128 .bf16) (harg3 : arg3.IsWhole) (arg4 : Memref sig .tc .vmem S4096x128 .bf16) (harg4 : arg4.IsWhole) (arg5 : Memref sig .tc .vmem S128 .f32) (harg5 : arg5.IsWhole)
    (x0 : Vec F S128x512 .f32) (x1 : Vec F S4096x512 .f32) (x2 : Vec F S128x128 .bf16) (x3 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 i x0 x1 x2 x3)) -∗ K ⟨⟩))
      ⊢ wp frame (wpE (defs₀ (F := F)) Variants.none c none) E (cc0__msl_kernel i arg1 harg1 arg2 harg2 arg3 harg3 arg4 harg4 arg5 harg5) K := by
  simp only [cc0__msl_kernel_eq_skeleton]; unfold cc0__msl_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the input blocks; the invariant is the scoped rest; the
    two windows on one array hold it at a half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => (fullShare : PosShare TreeShare).left
    | ⟨1, _⟩ => (fullShare : PosShare TreeShare).right
    | ⟨2, _⟩ => (fullShare : PosShare TreeShare).left
    | ⟨3, _⟩ => (fullShare : PosShare TreeShare).right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.IdealLaunch.lean ====
/-
  The run of @main around the kernel region.  The region reads the normalised features through two windows and the
  padded labels through two more; at the region's entry each of those two arrays is dealt to its two windows at a half
  share each, and gathered again at the exit, where the output array holds what the 32 grid points wrote back.  The
  host operations after the region (the sum of the 4096 row losses and the division by 4096) run from those exit
  contents.  Every buffer that is no window's array ends at what those operations compute.
-/
import proofs.«140503_j48515950576321_2_alg».proof.Proof.IdealRegion
import proofs.«140503_j48515950576321_2_alg».proof.Proof.LibSharedLaunch

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: the normalised features, the padded labels, the row losses. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v4) ↦{fullShare} W main_v4)
          ∗ (((c : Thread nD τ).loc main_v5) ↦{fullShare} W main_v5)) := by
  unfold Pipeline.arrBufs
  exact bigSep_eq_bigSepL_of_eq [main_v2, main_v4, main_v5] (by decide) (by decide) _

/-- The pipeline's arrays, window by window: the two windows on the features at a half share each, the two on the
    labels likewise, the output's whole. -/
theorem arrays_eq5 (c : Dev nD) (G : (w : Fin cfg0.W) → Buf (Elt F) ((cfg0.win w).arr.view.loc (c.tc : Thread nD τ))) :
    (dats m 0 c).arrays G
      = iprop((((c : Thread nD τ).loc main_v2) ↦{(fullShare : PosShare TreeShare).left} G 0) ∗ (((c : Thread nD τ).loc main_v2) ↦{(fullShare : PosShare TreeShare).right} G 1)
          ∗ (((c : Thread nD τ).loc main_v4) ↦{(fullShare : PosShare TreeShare).left} G 2) ∗ (((c : Thread nD τ).loc main_v4) ↦{(fullShare : PosShare TreeShare).right} G 3)
          ∗ (((c : Thread nD τ).loc main_v5) ↦{fullShare} G 4)) := by
  unfold Dat.arrays
  rw [bigSep_W0, (arr_whole0 0).set_eq_univ, (arr_whole0 2).set_eq_univ, (arr_whole0 4).set_eq_univ]
  rfl

/-- Dealing and gathering: the arrays at window contents that agree on a shared array are the three buffers whole. -/
theorem arrays_iff (c : Dev nD) (G : (w : Fin cfg0.W) → Buf (Elt F) ((cfg0.win w).arr.view.loc (c.tc : Thread nD τ)))
    (W : (b : Ref sig .tc) → Buf (Elt F) ((c : Thread nD τ).loc b))
    (h0 : G 0 = W main_v2) (h1 : G 1 = W main_v2) (h2 : G 2 = W main_v4) (h3 : G 3 = W main_v4) (h4 : G 4 = W main_v5) :
    (dats m 0 c).arrays G ⊣⊢ (Pipeline.arrBufs (Ix := Unit) (Name := ℕ) (U := UR sig nD τ) (Lvl := ℕ) spec0 c W : sProp 𝕄) := by
  rw [arrays_eq5, arrBufs_eq, h0, h1, h2, h3, h4]
  constructor
  · iintro ⟨Ha, Hb, Hc, Hd, He⟩
    isplitl [Ha Hb]
    · iapply (pointsTo_share (PosShare.mem_left_op_right fullShare)).2
      isplitl [Ha] <;> iassumption
    isplitl [Hc Hd]
    · iapply (pointsTo_share (PosShare.mem_left_op_right fullShare)).2
      isplitl [Hc] <;> iassumption
    iexact He
  · refine (BIClass.sep_mono (pointsTo_share (PosShare.mem_left_op_right fullShare)).1
      (BIClass.sep_mono (pointsTo_share (PosShare.mem_left_op_right fullShare)).1 .rfl)).trans ?_
    iintro ⟨⟨Ha, Hb⟩, ⟨Hc, Hd⟩, He⟩
    isplitl [Ha]; · iexact Ha
    isplitl [Hb]; · iexact Hb
    isplitl [Hc]; · iexact Hc
    isplitl [Hd]; · iexact Hd
    iexact He

/-! ## The exit contents -/

/-- The buffer contents at the region's exit: the output array at what the grid points wrote back, every other buffer
    as the region found it. -/
def Wx (c : Dev nD) : Valuation τ sig (Elt F) := fun b =>
  if h : Proc.devRef .tc main_v5 = b then
    cast (congrArg (fun b' : DevRef τ sig => b'.ty.Contents (Elt F)) h) ((dats m 0 c).arrAt 4 cfg0.N)
  else V0 m c b

theorem Wx_out (c : Dev nD) : Wx m c (Proc.devRef .tc main_v5) = (dats m 0 c).arrAt 4 cfg0.N := by
  unfold Wx; rw [dif_pos rfl]; rfl

theorem Wx_of_ne (c : Dev nD) (b : Ref sig .tc) (hb : main_v5 ≠ b) : Wx m c (Proc.devRef .tc b) = V0 m c (Proc.devRef .tc b) := by
  unfold Wx; rw [dif_neg]; intro e; exact hb (Proc.devRef_injective _ e)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The host operations after the region write only their own four results. -/
theorem tail_keeps (W : Valuation τ sig (Elt F)) (b : Ref sig .tc) (h1 : main_cst ≠ b) (h2 : main_v6 ≠ b) (h3 : main_cst_0 ≠ b) (h4 : main_v7 ≠ b) :
    StableHlo.after (List.flatten [hostOps1]) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    exact ⟨StableHlo.devRef_ne_of_ne h1.symm, StableHlo.devRef_ne_of_ne h2.symm, StableHlo.devRef_ne_of_ne h3.symm, StableHlo.devRef_ne_of_ne h4.symm⟩))

/-! ## The run -/

theorem mem_rest_ne (b : Ref sig .tc) (hb : b ∈ Pipeline.restRefs sig spec0) (w : Fin 5) : Pipeline.arrRef spec0 w ≠ b := fun e =>
  (Finset.mem_sdiff.mp hb).2 (Finset.mem_image.mpr ⟨w, Finset.mem_univ _, e⟩)

set_option backward.isDefEq.respectTransparency.types false in
/-- Every weakly fair execution of @main terminates, and every buffer that is no window's array ends at what the host
    operations after the region compute from the exit contents. -/
theorem run_main : θ_run defs (onTc (τ := τ) (main (F := F))) (s₀ m ρ) (fun r => ∀ c : Dev nD, ∀ b ∈ Pipeline.restRefs sig spec0,
      r.2.mem ((c.tc : Thread nD τ).loc b) = StableHlo.after (List.flatten [hostOps1]) (Wx m c) (Proc.devRef .tc b)) :=
  Pipeline.θ_run_around_shared cfgs (dats m) (0 : Fin 1) defs₀ Variants.none cellOf_inj winFacts₀0 block_pos0 arr_whole0 stage_whole0 m ρ main
    (hbody := fun c => (body_obligation m c).loose) (howed := fun _ _ => rfl) (V₀ := V0 m) (Wx := Wx m) (opss := [hostOps1])
    (hsub := sfx_sub) (hfresh := sfx_fresh) (hmain := hmain m Variants.none)
    (hsplit0 := fun c => (arrays_iff m c (fun w => (dats m 0 c).arrAt w 0) (V m c)
      (A_eq m c 0) (A_eq m c 1) (A_eq m c 2) (A_eq m c 3) (A_eq m c 4)).2)
    (hjoin := fun c => (arrays_iff m c (fun w => (dats m 0 c).arrAt w cfg0.N) (fun b => Wx m c (Proc.devRef .tc b))
      (((dats m 0 c).arrAt_in 0 rfl _).trans ((A_eq m c 0).trans (Wx_of_ne m c main_v2 (by decide)).symm))
      (((dats m 0 c).arrAt_in 1 rfl _).trans ((A_eq m c 1).trans (Wx_of_ne m c main_v2 (by decide)).symm))
      (((dats m 0 c).arrAt_in 2 rfl _).trans ((A_eq m c 2).trans (Wx_of_ne m c main_v4 (by decide)).symm))
      (((dats m 0 c).arrAt_in 3 rfl _).trans ((A_eq m c 3).trans (Wx_of_ne m c main_v4 (by decide)).symm))
      (Wx_out m c).symm).1)
    (hWx := fun c b hb => Wx_of_ne m c b (mem_rest_ne b hb 4))
    (hsplitN := fun c => (arrays_iff m c (fun w => (dats m 0 c).arrAt w cfg0.N)
        (fun b => StableHlo.after (List.flatten [hostOps1]) (Wx m c) (Proc.devRef .tc b))
      (((dats m 0 c).arrAt_in 0 rfl _).trans ((A_eq m c 0).trans ((Wx_of_ne m c main_v2 (by decide)).symm.trans
        (tail_keeps (Wx m c) main_v2 (by decide) (by decide) (by decide) (by decide)).symm)))
      (((dats m 0 c).arrAt_in 1 rfl _).trans ((A_eq m c 1).trans ((Wx_of_ne m c main_v2 (by decide)).symm.trans
        (tail_keeps (Wx m c) main_v2 (by decide) (by decide) (by decide) (by decide)).symm)))
      (((dats m 0 c).arrAt_in 2 rfl _).trans ((A_eq m c 2).trans ((Wx_of_ne m c main_v4 (by decide)).symm.trans
        (tail_keeps (Wx m c) main_v4 (by decide) (by decide) (by decide) (by decide)).symm)))
      (((dats m 0 c).arrAt_in 3 rfl _).trans ((A_eq m c 3).trans ((Wx_of_ne m c main_v4 (by decide)).symm.trans
        (tail_keeps (Wx m c) main_v4 (by decide) (by decide) (by decide) (by decide)).symm)))
      ((Wx_out m c).symm.trans (tail_keeps (Wx m c) main_v5 (by decide) (by decide) (by decide) (by decide)).symm)).2)
    (hin := fun c => .rfl) (hout := fun c => .rfl)

/-! ## The arguments are kept, and the result -/

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem end_main_arg0 (c : Dev nD) :
    StableHlo.after (List.flatten [hostOps1]) (Wx m c) (Proc.devRef .tc main_arg0) = m ((c : Thread nD τ).loc main_arg0) :=
  (tail_keeps (Wx m c) main_arg0 (by decide) (by decide) (by decide) (by decide)).trans
    ((Wx_of_ne m c main_arg0 (by decide)).trans (V_main_arg0 m c))
theorem end_main_arg1 (c : Dev nD) :
    StableHlo.after (List.flatten [hostOps1]) (Wx m c) (Proc.devRef .tc main_arg1) = m ((c : Thread nD τ).loc main_arg1) :=
  (tail_keeps (Wx m c) main_arg1 (by decide) (by decide) (by decide) (by decide)).trans
    ((Wx_of_ne m c main_arg1 (by decide)).trans (V_main_arg1 m c))

/-- The program's result: the sum of the 4096 row losses the region left, over 4096. -/
theorem end_main_v7 (c : Dev nD) :
    StableHlo.after (List.flatten [hostOps1]) (Wx m c) (Proc.devRef .tc main_v7)
      = Host.divf (Host.reduceAdd ((dats m 0 c).arrAt 4 cfg0.N) (constant (F := F) S_ .f32 0x00000000#32) reducesTo_S4096_S_d0 h_S_)
          (constant (F := F) S_ .f32 0x45800000#32) := by
  show StableHlo.after hostOps1 _ (Proc.devRef .tc main_v7) = _
  after_results
  rw [Wx_out]

/-- The frame: @main runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_arg0 (Pipeline.mem_restRefs_of main_arg0 (by decide) (by decide))).trans (end_main_arg0 m c),
     (h c main_arg1 (Pipeline.mem_restRefs_of main_arg1 (by decide) (by decide))).trans (end_main_arg1 m c)⟩) (run_main m ρ)

/-- The run with the result named. -/
theorem run_value : θ_run defs (onTc (τ := τ) (main (F := F))) ⟨m, fun _ => 0, ρ⟩ (fun r => ∀ c : Dev nD,
      r.2.mem ((c.tc : Thread nD τ).loc main_v7)
        = Host.divf (Host.reduceAdd ((dats m 0 c).arrAt 4 cfg0.N) (constant (F := F) S_ .f32 0x00000000#32) reducesTo_S4096_S_d0 h_S_)
            (constant (F := F) S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_v7 (Pipeline.mem_restRefs_of main_v7 (by decide) (by decide))).trans (end_main_v7 m c),
     (h c main_arg0 (Pipeline.mem_restRefs_of main_arg0 (by decide) (by decide))).trans (end_main_arg0 m c),
     (h c main_arg1 (Pipeline.mem_restRefs_of main_arg1 (by decide) (by decide))).trans (end_main_arg1 m c)⟩) (run_main m ρ)

end Cert.KernelIdeal.Region

end
-- ==== Proof.Spec.lean ====
/-
  The multi-similarity loss as one function of the similarity matrix and two masks.

  For a row `i` of a 4096 × 4096 similarity matrix `s`, a mask `pv` of the row's valid positives and a mask `ng` of its
  negatives (both with entries in {0, 1}): the smallest valid positive similarity `posMin`; the negatives kept are those
  within the margin of it, the largest kept negative similarity is `negMax`; the positives kept are the valid ones within
  the margin of that; the two exponential sums over the kept entries; and the row's loss, counted only when the row is
  "live".  Two readings of "live" occur: both exponential sums positive (`lossSums`), or some positive kept and some
  negative kept (`lossAny`).  The total is the mean of the row losses.  Literal constants are kept as the f32 words both
  programs print (0.99999, 0.1, 0.5, −2, 40, 2, 4096, ±∞).
-/
import Idealize.ShloMosaic.PureOps.Ideal
import Idealize.ShloMosaic.PureOps.Ideal.Laws
import Idealize.ShloMosaic.Lib.ValueIdx

noncomputable section

namespace Cert.MSL

open Idealize.ShloMosaic Idealize.ShloMosaic.ValueIdx

/-- Row `i` · row `j` of a [4096, 512] array. -/
def simOf (f : (⟨2, ![4096, 512]⟩ : Shape).Idx → EReal) (i j : Fin 4096) : EReal :=
  ∑ k : Fin 512, f (ix2 i k) * f (ix2 j k)

/-- Row `i` · row `j` of a [4096, 100] array. -/
def labDot (l : (⟨2, ![4096, 100]⟩ : Shape).Idx → EReal) (i j : Fin 4096) : EReal :=
  ∑ k : Fin 100, l (ix2 i k) * l (ix2 j k)

/-- Row `i` · row `j` of a [4096, 128] array. -/
def labDotPad (l : (⟨2, ![4096, 128]⟩ : Shape).Idx → EReal) (i j : Fin 4096) : EReal :=
  ∑ k : Fin 128, l (ix2 i k) * l (ix2 j k)

section Row

variable (s : Fin 4096 → Fin 4096 → EReal) (pv ng : Fin 4096 → Fin 4096 → BitVec 1)

/-- The smallest similarity among row `i`'s valid positives (`+∞` if there is none). -/
def posMin (i : Fin 4096) : EReal :=
  (Finset.univ : Finset (Fin 4096)).fold min (Ideal.ofBits .f32 0x7F800000#32)
    (fun j => Scalar.select (pv i j) (s i j) (Ideal.ofBits .f32 0x7F800000#32))

/-- A negative is kept when its similarity plus the margin exceeds the smallest valid positive. -/
def negKeep (i j : Fin 4096) : BitVec 1 :=
  IntOp.andi (ng i j) (Ideal.cmp .ogt (s i j + Ideal.ofBits .f32 0x3DCCCCCD#32) (posMin s pv i))

/-- The largest similarity among row `i`'s kept negatives (`−∞` if there is none). -/
def negMax (i : Fin 4096) : EReal :=
  (Finset.univ : Finset (Fin 4096)).fold max (Ideal.ofBits .f32 0xFF800000#32)
    (fun j => Scalar.select (negKeep s pv ng i j) (s i j) (Ideal.ofBits .f32 0xFF800000#32))

/-- A valid positive is kept when its similarity minus the margin is below the largest kept negative. -/
def posKeep (i j : Fin 4096) : BitVec 1 :=
  IntOp.andi (pv i j) (Ideal.cmp .olt (s i j - Ideal.ofBits .f32 0x3DCCCCCD#32) (negMax s pv ng i))

/-- One positive's term: exp(−2 (s − 1/2)). -/
def posTerm (i j : Fin 4096) : EReal :=
  Ideal.exp (Ideal.ofBits .f32 0xC0000000#32 * (s i j - Ideal.ofBits .f32 0x3F000000#32))

/-- One negative's term: exp(40 (s − 1/2)). -/
def negTerm (i j : Fin 4096) : EReal :=
  Ideal.exp (Ideal.ofBits .f32 0x42200000#32 * (s i j - Ideal.ofBits .f32 0x3F000000#32))

def posSum (i : Fin 4096) : EReal :=
  ∑ j : Fin 4096, Scalar.select (posKeep s pv ng i j) (posTerm s i j) (Ideal.ofBits .f32 0x00000000#32)

def negSum (i : Fin 4096) : EReal :=
  ∑ j : Fin 4096, Scalar.select (negKeep s pv ng i j) (negTerm s i j) (Ideal.ofBits .f32 0x00000000#32)

/-- log(1 + posSum)/2 + log(1 + negSum)/40. -/
def lossBody (i : Fin 4096) : EReal :=
  Ideal.div (Ideal.log1p (posSum s pv ng i)) (Ideal.ofBits .f32 0x40000000#32)
    + Ideal.div (Ideal.log1p (negSum s pv ng i)) (Ideal.ofBits .f32 0x42200000#32)

/-- The row's loss, live when both exponential sums are positive. -/
def lossSums (i : Fin 4096) : EReal :=
  Scalar.select (IntOp.andi (Ideal.cmp .ogt (posSum s pv ng i) (Ideal.ofBits .f32 0x00000000#32))
      (Ideal.cmp .ogt (negSum s pv ng i) (Ideal.ofBits .f32 0x00000000#32)))
    (lossBody s pv ng i) (Ideal.ofBits .f32 0x00000000#32)

/-- "Some entry of the row's mask is set": the fold of `or` from 0. -/
def anyOf (mk : Fin 4096 → BitVec 1) : BitVec 1 :=
  (Finset.univ : Finset (Fin 4096)).fold IntOp.ori 0#1 mk

/-- The row's loss, live when some positive is kept and some negative is kept. -/
def lossAny (i : Fin 4096) : EReal :=
  Scalar.select (IntOp.andi (anyOf fun j => posKeep s pv ng i j) (anyOf fun j => negKeep s pv ng i j))
    (lossBody s pv ng i) (Ideal.ofBits .f32 0x00000000#32)

end Row

/-- The mean over the 4096 rows. -/
def meanOf (loss : Fin 4096 → EReal) : EReal :=
  Ideal.div (∑ i : Fin 4096, loss i) (Ideal.ofBits .f32 0x45800000#32)

/-! ## The masks of the two programs -/

/-- The kernel's positives: label product above 1/2, off the diagonal, similarity below 0.99999. -/
def pvK (s : Fin 4096 → Fin 4096 → EReal) (ld : Fin 4096 → Fin 4096 → EReal) (i j : Fin 4096) : BitVec 1 :=
  IntOp.andi (IntOp.andi (Ideal.cmp .ogt (ld i j) (Ideal.ofBits .f32 0x3F000000#32)) (if i = j then 0#1 else 1#1))
    (Ideal.cmp .olt (s i j) (Ideal.ofBits .f32 0x3F7FFF58#32))

/-- The kernel's negatives: label product not above 1/2. -/
def ngK (ld : Fin 4096 → Fin 4096 → EReal) (i j : Fin 4096) : BitVec 1 :=
  IntOp.xori (Ideal.cmp .ogt (ld i j) (Ideal.ofBits .f32 0x3F000000#32)) 1#1

/-- The reference's positives: label product above 0, similarity below 0.99999. -/
def pvR (s : Fin 4096 → Fin 4096 → EReal) (ld : Fin 4096 → Fin 4096 → EReal) (i j : Fin 4096) : BitVec 1 :=
  IntOp.andi (Ideal.cmp .ogt (ld i j) (Ideal.ofBits .f32 0x00000000#32)) (Ideal.cmp .olt (s i j) (Ideal.ofBits .f32 0x3F7FFF58#32))

/-- The reference's negatives: label product not above 0. -/
def ngR (ld : Fin 4096 → Fin 4096 → EReal) (i j : Fin 4096) : BitVec 1 :=
  ~~~(Ideal.cmp .ogt (ld i j) (Ideal.ofBits .f32 0x00000000#32))

/-- The kernel's result as a function of the normalised features `f` and the padded labels `lp`. -/
def kernelLoss (f : (⟨2, ![4096, 512]⟩ : Shape).Idx → EReal) (lp : (⟨2, ![4096, 128]⟩ : Shape).Idx → EReal) : EReal :=
  meanOf (lossSums (simOf f) (pvK (simOf f) (labDotPad lp)) (ngK (labDotPad lp)))

/-- The reference's result as a function of the normalised features `f` and the labels `l`. -/
def referenceLoss (f : (⟨2, ![4096, 512]⟩ : Shape).Idx → EReal) (l : (⟨2, ![4096, 100]⟩ : Shape).Idx → EReal) : EReal :=
  meanOf (lossAny (simOf f) (pvR (simOf f) (labDot l)) (ngR (labDot l)))

end Cert.MSL

end
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.PayDots.lean ====
/-
  The kernel body's two products and its mask of valid positives, read at one entry.

  At row p of the block and column j: the similarity is the dot product of feature row p of the block with feature
  row j of the whole array; the "same label" bit compares the dot product of the two label rows with 1/2; and a valid
  positive is a same-label entry off the diagonal (global row i·128 + p differs from column j) whose similarity is
  below 0.99999.
-/
import proofs.«140503_j48515950576321_2_alg».proof.Proof.Gen.KernelIdeal.Skeleton
import proofs.«140503_j48515950576321_2_alg».proof.Proof.LibTransposedDot
import proofs.«140503_j48515950576321_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The similarity block at (p, j): feature row p of the block times feature row j. -/
theorem pay2_at (v0 : Vec Ideal S128x512 .f32) (v2 : Vec Ideal S4096x512 .f32) (p : Fin 128) (j : Fin 4096) :
    k0_pay2 (F := Ideal) v0 v2 (ix2 p j) = ∑ k : Fin 512, v0 (ix2 p k) * v2 (ix2 j k) := by
  unfold k0_pay2
  rw [shapeCast_self, shapeCast_self]
  exact TransposedDot.matmul_zero_apply 128 512 4096 (some .fp32) v0 v2 p j

/-- The same-label bit at (p, j): the label rows' dot product against 1/2. -/
theorem pay3_at (v5 : Vec Ideal S128x128 .bf16) (v7 : Vec Ideal S4096x128 .bf16) (p : Fin 128) (j : Fin 4096) :
    k0_pay3 (F := Ideal) v5 v7 (ix2 p j)
      = Ideal.cmp .ogt (∑ k : Fin 128, v5 (ix2 p k) * v7 (ix2 j k)) (Ideal.ofBits .f32 0x3F000000#32) := by
  unfold k0_pay3
  rw [shapeCast_self, shapeCast_self]
  show Ideal.cmp .ogt _ _ = _
  exact congrArg (fun x => Ideal.cmp .ogt x (Ideal.ofBits .f32 0x3F000000#32))
    (TransposedDot.matmul_zero_apply 128 128 4096 none v5 v7 p j)

/-- The "not equal" bit of two 32-bit words: the equality bit flipped. -/
theorem xori_cmpi_eq (a b : BitVec 32) :
    IntOp.xori (IntOp.cmpi .eq a b) 1#1 = if a = b then 0#1 else 1#1 := by
  by_cases h : a = b
  · subst h
    simp [IntOp.xori, IntOp.cmpi]
  · have hb : (a == b) = false := beq_eq_false_iff_ne.mpr h
    simp [IntOp.xori, IntOp.cmpi, h, hb]

/-- With i < 32, p < 128 and j < 4096 nothing wraps: the words i·128 + p and j are equal exactly when the numbers are. -/
theorem rowWord_eq_colWord_iff {n p j : Nat} (hn : n < 32) (hp : p < 128) (hj : j < 4096) :
    BitVec.ofNat 32 n * 128#32 + BitVec.ofNat 32 p = BitVec.ofNat 32 j ↔ n * 128 + p = j := by
  rw [← BitVec.toNat_inj]
  simp only [BitVec.toNat_add, BitVec.toNat_mul, BitVec.toNat_ofNat]
  omega

/-- The off-diagonal bit at block i, row p, column j. -/
theorem diag_bit (i : grid0.Coords) (p : Fin 128) (j : Fin 4096) :
    IntOp.xori (IntOp.cmpi .eq (BitVec.ofNat 32 (i 0).val * 128#32 + BitVec.ofNat 32 p.val) (BitVec.ofNat 32 j.val)) 1#1
      = if (i 0).val * 128 + p.val = j.val then 0#1 else 1#1 := by
  have hi : (i 0).val < 32 := (i 0).isLt
  rw [xori_cmpi_eq]
  exact if_congr (rowWord_eq_colWord_iff hi p.isLt j.isLt) rfl rfl

/-- The row words, a column of i·128 + p broadcast along the rows, read at (p, j). -/
theorem rowWord_at (w : BitVec 32) (p : Fin 128) (j : Fin 4096) :
    broadcastTo S128x4096 (addi (broadcast S128x1 w) (iota .tc S128x1 32 [0] Facts₀.iota_S128x1_d0_w32))
        Facts₀.broadcasts_S128x1_S128x4096 (ix2 p j)
      = w + BitVec.ofNat 32 p.val := by
  rw [LibKeepdims.broadcastTo_a1_ab_apply]
  show w + iota .tc S128x1 32 [0] Facts₀.iota_S128x1_d0_w32 (ix2 p (0 : Fin 1)) = _
  rw [iota_single_apply]

/-- The column words, a row of j broadcast down the columns, read at (p, j). -/
theorem colWord_at (p : Fin 128) (j : Fin 4096) :
    broadcastTo S128x4096 (iota .tc S1x4096 32 [1] Facts₀.iota_S1x4096_d1_w32) Facts₀.broadcasts_S1x4096_S128x4096 (ix2 p j)
      = BitVec.ofNat 32 j.val := by
  rw [broadcastTo_1b_ab_apply, iota_single_apply]

/-- The valid-positive bit at (p, j): same label, off the diagonal, similarity below 0.99999. -/
theorem pay4_at (i : grid0.Coords) (v0 : Vec Ideal S128x512 .f32) (v2 : Vec Ideal S4096x512 .f32)
    (v5 : Vec Ideal S128x128 .bf16) (v7 : Vec Ideal S4096x128 .bf16) (p : Fin 128) (j : Fin 4096) :
    k0_pay4 (F := Ideal) i v0 v2 v5 v7 (ix2 p j)
      = IntOp.andi (IntOp.andi (k0_pay3 (F := Ideal) v5 v7 (ix2 p j)) (if (i 0).val * 128 + p.val = j.val then 0#1 else 1#1))
          (Ideal.cmp .olt (k0_pay2 (F := Ideal) v0 v2 (ix2 p j)) (Ideal.ofBits .f32 0x3F7FFF58#32)) := by
  unfold k0_pay4
  refine congrArg₂ IntOp.andi (congrArg₂ IntOp.andi rfl ?_) rfl
  refine Eq.trans ?_ (diag_bit i p j)
  exact congrArg₂ (fun a b => IntOp.xori (IntOp.cmpi .eq a b) 1#1) (rowWord_at _ p j) (colWord_at p j)

end Cert.KernelIdeal.Pay

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.PayMinMax.lean ====
/-
  The kernel's kept-negative mask and its row maximum, read at an index.

  The mask at (p, j) is "not positive" and "similarity plus the margin above the row's smallest valid positive
  similarity"; that smallest similarity is a minimum along the row, kept as a one-column matrix and spread back over
  the row.  The row maximum at (p, 0) is the maximum along the row of the similarities at the kept negatives.
-/
import proofs.«140503_j48515950576321_2_alg».proof.Proof.Gen.KernelIdeal.Skeleton
import proofs.«140503_j48515950576321_2_alg».proof.Proof.LibRowTable
import proofs.«140503_j48515950576321_2_alg».proof.Proof.LibRowMax
import proofs.«140503_j48515950576321_2_alg».proof.Proof.LibKeepdims
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- A row minimum kept as a column and spread back over the row, read at (p, j): the fold of min along row p. -/
theorem rowMinSpread_at (src : FVec Ideal S128x4096 .f32) (acc : BitVec (FTy.bits .f32))
    (hred : S128x4096.Reduces [1] S128) (hφ : FKind.Formats .f32) (hacc : acc = FKind.minimumf.neutral .f32 hφ)
    (hsc : S128.ShapeCasts S128x1) (hbc : S128x1.Broadcasts S128x4096) (p : Fin 128) (j : Fin 4096) :
    broadcastTo S128x4096 (shapeCast S128x1 (multiReduction (F := Ideal) .minimumf [1] S128 src acc hred hφ hacc) hsc) hbc (ix2 p j)
      = (Finset.univ : Finset (Fin 4096)).fold min (Ideal.ofBits .f32 acc) (fun k => src (ix2 p k)) := by
  refine (Cert.LibKeepdims.broadcastTo_a1_ab_apply _ hbc p j).trans ?_
  refine (Cert.LibKeepdims.shapeCast_a_a1_apply _ hsc p (0 : Fin 1)).trans ?_
  exact Cert.LibRowTable.rowMin_apply src acc hred hφ hacc p

/-- The kept-negative mask over opaque inputs: the positives' mask m3, the valid positives' mask m4, the similarities s. -/
theorem pay5_core (m3 m4 : IVec S128x4096 1) (s : FVec Ideal S128x4096 .f32)
    (hred : S128x4096.Reduces [1] S128) (hφ : FKind.Formats .f32)
    (hacc : (0x7F800000#32 : BitVec (FTy.bits .f32)) = FKind.minimumf.neutral .f32 hφ)
    (hsc : S128.ShapeCasts S128x1) (hbc : S128x1.Broadcasts S128x4096) (p : Fin 128) (j : Fin 4096) :
    andi (xori m3 (constantI S128x4096 1 1#1))
        (cmpf .ogt (addf s (broadcast S128x4096 (Scalar.ofBits (F := Ideal) .f32 0x3DCCCCCD#32)))
          (broadcastTo S128x4096
            (shapeCast S128x1
              (multiReduction (F := Ideal) .minimumf [1] S128
                (select m4 s (broadcast S128x4096 (Scalar.ofBits (F := Ideal) .f32 0x7F800000#32))) 0x7F800000#32 hred hφ hacc)
              hsc) hbc)) (ix2 p j)
      = IntOp.andi (IntOp.xori (m3 (ix2 p j)) 1#1)
          (Ideal.cmp .ogt (s (ix2 p j) + Ideal.ofBits .f32 0x3DCCCCCD#32)
            ((Finset.univ : Finset (Fin 4096)).fold min (Ideal.ofBits .f32 0x7F800000#32)
              (fun j' => Scalar.select (m4 (ix2 p j')) (s (ix2 p j')) (Ideal.ofBits .f32 0x7F800000#32)))) := by
  have hY := rowMinSpread_at (select m4 s (broadcast S128x4096 (Scalar.ofBits (F := Ideal) .f32 0x7F800000#32)))
    0x7F800000#32 hred hφ hacc hsc hbc p j
  exact congrArg (fun y => IntOp.andi (IntOp.xori (m3 (ix2 p j)) 1#1)
    (Ideal.cmp .ogt (s (ix2 p j) + Ideal.ofBits .f32 0x3DCCCCCD#32) y)) hY

/-- The kept-negative mask at (p, j). -/
theorem pay5_at (v0 : Vec Ideal S128x512 .f32) (v2 : Vec Ideal S4096x512 .f32) (v5 : Vec Ideal S128x128 .bf16)
    (v7 : Vec Ideal S4096x128 .bf16) (i : grid0.Coords) (p : Fin 128) (j : Fin 4096) :
    k0_pay5 (F := Ideal) i v0 v2 v5 v7 (ix2 p j)
      = IntOp.andi (IntOp.xori (k0_pay3 (F := Ideal) v5 v7 (ix2 p j)) 1#1)
          (Ideal.cmp .ogt (k0_pay2 (F := Ideal) v0 v2 (ix2 p j) + Ideal.ofBits .f32 0x3DCCCCCD#32)
            ((Finset.univ : Finset (Fin 4096)).fold min (Ideal.ofBits .f32 0x7F800000#32)
              (fun j' => Scalar.select (k0_pay4 (F := Ideal) i v0 v2 v5 v7 (ix2 p j')) (k0_pay2 (F := Ideal) v0 v2 (ix2 p j'))
                (Ideal.ofBits .f32 0x7F800000#32)))) := by
  unfold k0_pay5
  exact pay5_core (k0_pay3 (F := Ideal) v5 v7) (k0_pay4 (F := Ideal) i v0 v2 v5 v7) (k0_pay2 (F := Ideal) v0 v2) _ _ _ _ _ p j

/-- A row maximum kept as a column, read at (p, 0): the fold of max along row p. -/
theorem rowMaxCol_at (src : FVec Ideal S128x4096 .f32) (acc : BitVec (FTy.bits .f32))
    (hred : S128x4096.Reduces [1] S128) (hφ : FKind.Formats .f32) (hacc : acc = FKind.maximumf.neutral .f32 hφ)
    (hsc : S128.ShapeCasts S128x1) (p : Fin 128) :
    shapeCast S128x1 (multiReduction (F := Ideal) .maximumf [1] S128 src acc hred hφ hacc) hsc (ix2 p (0 : Fin 1))
      = (Finset.univ : Finset (Fin 4096)).fold max (Ideal.ofBits .f32 acc) (fun k => src (ix2 p k)) := by
  refine (Cert.LibKeepdims.shapeCast_a_a1_apply _ hsc p (0 : Fin 1)).trans ?_
  exact Cert.LibRowMax.rowMax_apply src acc hred hφ hacc p

/-- The row maximum over opaque inputs: the kept negatives' mask m5 and the similarities s. -/
theorem pay6_core (m5 : IVec S128x4096 1) (s : FVec Ideal S128x4096 .f32)
    (hred : S128x4096.Reduces [1] S128) (hφ : FKind.Formats .f32)
    (hacc : (0xFF800000#32 : BitVec (FTy.bits .f32)) = FKind.maximumf.neutral .f32 hφ)
    (hsc : S128.ShapeCasts S128x1) (p : Fin 128) :
    shapeCast S128x1
        (multiReduction (F := Ideal) .maximumf [1] S128
          (select m5 s (broadcast S128x4096 (Scalar.ofBits (F := Ideal) .f32 0xFF800000#32))) 0xFF800000#32 hred hφ hacc)
        hsc (ix2 p (0 : Fin 1))
      = (Finset.univ : Finset (Fin 4096)).fold max (Ideal.ofBits .f32 0xFF800000#32)
          (fun j' => Scalar.select (m5 (ix2 p j')) (s (ix2 p j')) (Ideal.ofBits .f32 0xFF800000#32)) :=
  rowMaxCol_at (select m5 s (broadcast S128x4096 (Scalar.ofBits (F := Ideal) .f32 0xFF800000#32))) 0xFF800000#32 hred hφ hacc hsc p

/-- The row maximum of the kept negatives' similarities at (p, 0). -/
theorem pay6_at (v0 : Vec Ideal S128x512 .f32) (v2 : Vec Ideal S4096x512 .f32) (v5 : Vec Ideal S128x128 .bf16)
    (v7 : Vec Ideal S4096x128 .bf16) (i : grid0.Coords) (p : Fin 128) :
    k0_pay6 (F := Ideal) i v0 v2 v5 v7 (ix2 p (0 : Fin 1))
      = (Finset.univ : Finset (Fin 4096)).fold max (Ideal.ofBits .f32 0xFF800000#32)
          (fun j' => Scalar.select (k0_pay5 (F := Ideal) i v0 v2 v5 v7 (ix2 p j')) (k0_pay2 (F := Ideal) v0 v2 (ix2 p j'))
            (Ideal.ofBits .f32 0xFF800000#32)) := by
  unfold k0_pay6
  exact pay6_core (k0_pay5 (F := Ideal) i v0 v2 v5 v7) (k0_pay2 (F := Ideal) v0 v2) _ _ _ _ p

end Cert.KernelIdeal.Pay

end
-- ==== Proof.PayLoss.lean ====
/-
  The loss of one row, as the kernel computes it and as the specification states it.

  `rowLoss` is the multi-similarity loss of a single row written out from the row's data alone: the similarities of
  the row, the mask of its valid positives, the mask of its kept negatives, and the largest kept negative similarity.
  A positive is kept when it is valid and its similarity minus the margin is below that largest value; the two
  exponential sums run over the kept positives and the kept negatives; the row is live when both sums are positive.

  * `pay1_at`: the value the kernel stores for row `p` of a block is `rowLoss` of that row of its operands.
  * `lossSums_rowconst`: the specification's row loss of matrices whose rows are all the same row is `rowLoss` of that row.
  * `lossSums_congr_row`: the specification's row loss of row `r` reads only row `r` of the similarity matrix and of
    the two masks.
-/
import proofs.«140503_j48515950576321_2_alg».proof.Proof.Gen.KernelIdeal.Skeleton
import proofs.«140503_j48515950576321_2_alg».proof.Proof.Spec
import proofs.«140503_j48515950576321_2_alg».proof.Proof.LibKeepdims
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx
open scoped BigOperators

/-! ## The loss of one row from the row's data -/

/-- The sum of exp(−2 (s − 1/2)) over the valid positives whose similarity minus the margin is below `nmax`. -/
def rowPosSum (srow : Fin 4096 → EReal) (pvrow : Fin 4096 → BitVec 1) (nmax : EReal) : EReal :=
  ∑ j : Fin 4096, Scalar.select
    (IntOp.andi (pvrow j) (Ideal.cmp .olt (srow j - Ideal.ofBits .f32 0x3DCCCCCD#32) nmax))
    (Ideal.exp (Ideal.ofBits .f32 0xC0000000#32 * (srow j - Ideal.ofBits .f32 0x3F000000#32)))
    (Ideal.ofBits .f32 0x00000000#32)

/-- The sum of exp(40 (s − 1/2)) over the kept negatives. -/
def rowNegSum (srow : Fin 4096 → EReal) (nkrow : Fin 4096 → BitVec 1) : EReal :=
  ∑ j : Fin 4096, Scalar.select (nkrow j)
    (Ideal.exp (Ideal.ofBits .f32 0x42200000#32 * (srow j - Ideal.ofBits .f32 0x3F000000#32)))
    (Ideal.ofBits .f32 0x00000000#32)

/-- log(1 + PS)/2 + log(1 + NS)/40 when both sums are positive, and 0 otherwise. -/
def lossOfSums (PS NS : EReal) : EReal :=
  Scalar.select
    (IntOp.andi (Ideal.cmp .ogt PS (Ideal.ofBits .f32 0x00000000#32)) (Ideal.cmp .ogt NS (Ideal.ofBits .f32 0x00000000#32)))
    (Ideal.div (Ideal.log1p PS) (Ideal.ofBits .f32 0x40000000#32)
      + Ideal.div (Ideal.log1p NS) (Ideal.ofBits .f32 0x42200000#32))
    (Ideal.ofBits .f32 0x00000000#32)

/-- The loss of a row from its similarities `srow`, its valid positives `pvrow`, its kept negatives `nkrow` and the
    largest kept negative similarity `nmax`. -/
def rowLoss (srow : Fin 4096 → EReal) (pvrow nkrow : Fin 4096 → BitVec 1) (nmax : EReal) : EReal :=
  lossOfSums (rowPosSum srow pvrow nmax) (rowNegSum srow nkrow)

/-! ## The kernel's stored value -/

/-- The sum of a block along its rows, at row `p`. -/
theorem rowSum_at (src : FVec Ideal S128x4096 .f32) (p : Fin 128) :
    multiReduction (F := Ideal) .add [1] S128 src 0x00000000#32 reduces_S128x4096_S128 (.inl rfl) rfl (ix1 p)
      = ∑ j : Fin 4096, src (ix2 p j) :=
  Cert.LibKeepdims.rowSum_apply src _ reduces_S128x4096_S128 _ _ p

/-- A column spread along the rows of a block reads the column at the row. -/
theorem col_at (v38 : FVec Ideal S128x1 .f32) (p : Fin 128) (j : Fin 4096) :
    broadcastTo S128x4096 v38 broadcasts_S128x1_S128x4096 (ix2 p j) = v38 (ix2 p (0 : Fin 1)) :=
  Cert.LibKeepdims.broadcastTo_a1_ab_apply v38 _ p j

/-- The kept positives' terms, as a block. -/
def posVec (v4 : FVec Ideal S128x4096 .f32) (v25 : IVec S128x4096 1) (v38 : FVec Ideal S128x1 .f32) :
    FVec Ideal S128x4096 .f32 :=
  select
    (andi v25 (cmpf .olt (subf v4 (broadcast S128x4096 (Scalar.ofBits .f32 0x3DCCCCCD#32)))
      (broadcastTo S128x4096 v38 broadcasts_S128x1_S128x4096)))
    (exp (mulf (broadcast S128x4096 (Scalar.ofBits .f32 0xC0000000#32))
      (subf v4 (broadcast S128x4096 (Scalar.ofBits .f32 0x3F000000#32)))))
    (broadcast S128x4096 (Scalar.ofBits .f32 0x00000000#32))

/-- The kept negatives' terms, as a block. -/
def negVec (v4 : FVec Ideal S128x4096 .f32) (v34 : IVec S128x4096 1) : FVec Ideal S128x4096 .f32 :=
  select v34
    (exp (mulf (broadcast S128x4096 (Scalar.ofBits .f32 0x42200000#32))
      (subf v4 (broadcast S128x4096 (Scalar.ofBits .f32 0x3F000000#32)))))
    (broadcast S128x4096 (Scalar.ofBits .f32 0x00000000#32))

theorem posVec_at (v4 : FVec Ideal S128x4096 .f32) (v25 : IVec S128x4096 1) (v38 : FVec Ideal S128x1 .f32)
    (p : Fin 128) (j : Fin 4096) :
    posVec v4 v25 v38 (ix2 p j)
      = Scalar.select
          (IntOp.andi (v25 (ix2 p j))
            (Ideal.cmp .olt (v4 (ix2 p j) - Ideal.ofBits .f32 0x3DCCCCCD#32) (v38 (ix2 p (0 : Fin 1)))))
          (Ideal.exp (Ideal.ofBits .f32 0xC0000000#32 * (v4 (ix2 p j) - Ideal.ofBits .f32 0x3F000000#32)))
          (Ideal.ofBits .f32 0x00000000#32) := by
  rw [← col_at v38 p j]
  rfl

theorem negVec_at (v4 : FVec Ideal S128x4096 .f32) (v34 : IVec S128x4096 1) (p : Fin 128) (j : Fin 4096) :
    negVec v4 v34 (ix2 p j)
      = Scalar.select (v34 (ix2 p j))
          (Ideal.exp (Ideal.ofBits .f32 0x42200000#32 * (v4 (ix2 p j) - Ideal.ofBits .f32 0x3F000000#32)))
          (Ideal.ofBits .f32 0x00000000#32) := rfl

/-- The stored value is the loss from the two row sums of the blocks of terms. -/
theorem pay1_sums (v4 : FVec Ideal S128x4096 .f32) (v25 v34 : IVec S128x4096 1) (v38 : FVec Ideal S128x1 .f32)
    (p : Fin 128) :
    k0_pay1 (F := Ideal) v4 v25 v34 v38 (ix1 p)
      = lossOfSums
          (multiReduction (F := Ideal) .add [1] S128 (posVec v4 v25 v38) 0x00000000#32 reduces_S128x4096_S128
            (.inl rfl) rfl (ix1 p))
          (multiReduction (F := Ideal) .add [1] S128 (negVec v4 v34) 0x00000000#32 reduces_S128x4096_S128
            (.inl rfl) rfl (ix1 p)) := rfl

/-- The value the kernel stores for row `p` of a block: the loss of that row of its operands. -/
theorem pay1_at (v4 : FVec Ideal S128x4096 .f32) (v25 v34 : IVec S128x4096 1) (v38 : FVec Ideal S128x1 .f32)
    (p : Fin 128) :
    k0_pay1 (F := Ideal) v4 v25 v34 v38 (ix1 p)
      = rowLoss (fun j => v4 (ix2 p j)) (fun j => v25 (ix2 p j)) (fun j => v34 (ix2 p j)) (v38 (ix2 p (0 : Fin 1))) := by
  rw [pay1_sums, rowSum_at, rowSum_at]
  unfold rowLoss rowPosSum rowNegSum
  rw [Finset.sum_congr rfl fun j _ => posVec_at v4 v25 v38 p j,
    Finset.sum_congr rfl fun j _ => negVec_at v4 v34 p j]

/-! ## The specification's row loss -/

/-- The specification's row loss of matrices all of whose rows are the same row: the loss of that row, its kept
    negatives and its largest kept negative similarity being the specification's own. -/
theorem lossSums_rowconst (srow : Fin 4096 → EReal) (pvrow ngrow : Fin 4096 → BitVec 1) (r : Fin 4096) :
    Cert.MSL.lossSums (fun _ j => srow j) (fun _ j => pvrow j) (fun _ j => ngrow j) r
      = rowLoss srow pvrow
          (fun j => Cert.MSL.negKeep (fun _ j => srow j) (fun _ j => pvrow j) (fun _ j => ngrow j) r j)
          (Cert.MSL.negMax (fun _ j => srow j) (fun _ j => pvrow j) (fun _ j => ngrow j) r) := rfl

section Congr

variable (s s' : Fin 4096 → Fin 4096 → EReal) (pv pv' ng ng' : Fin 4096 → Fin 4096 → BitVec 1) (r r' : Fin 4096)
  (hs : ∀ j, s r j = s' r' j) (hpv : ∀ j, pv r j = pv' r' j) (hng : ∀ j, ng r j = ng' r' j)

include hs hpv in
theorem posMin_congr_row : Cert.MSL.posMin s pv r = Cert.MSL.posMin s' pv' r' := by
  unfold Cert.MSL.posMin
  rw [funext fun j => show Scalar.select (pv r j) (s r j) (Ideal.ofBits .f32 0x7F800000#32)
      = Scalar.select (pv' r' j) (s' r' j) (Ideal.ofBits .f32 0x7F800000#32) by rw [hs j, hpv j]]

include hs hpv hng in
theorem negKeep_congr_row (j : Fin 4096) : Cert.MSL.negKeep s pv ng r j = Cert.MSL.negKeep s' pv' ng' r' j := by
  unfold Cert.MSL.negKeep
  rw [hng j, hs j, posMin_congr_row s s' pv pv' r r' hs hpv]

include hs hpv hng in
theorem negMax_congr_row : Cert.MSL.negMax s pv ng r = Cert.MSL.negMax s' pv' ng' r' := by
  unfold Cert.MSL.negMax
  rw [funext fun j => show Scalar.select (Cert.MSL.negKeep s pv ng r j) (s r j) (Ideal.ofBits .f32 0xFF800000#32)
      = Scalar.select (Cert.MSL.negKeep s' pv' ng' r' j) (s' r' j) (Ideal.ofBits .f32 0xFF800000#32) by
    rw [negKeep_congr_row s s' pv pv' ng ng' r r' hs hpv hng j, hs j]]

include hs hpv hng in
theorem posKeep_congr_row (j : Fin 4096) : Cert.MSL.posKeep s pv ng r j = Cert.MSL.posKeep s' pv' ng' r' j := by
  unfold Cert.MSL.posKeep
  rw [hpv j, hs j, negMax_congr_row s s' pv pv' ng ng' r r' hs hpv hng]

include hs hpv hng in
theorem posSum_congr_row : Cert.MSL.posSum s pv ng r = Cert.MSL.posSum s' pv' ng' r' := by
  unfold Cert.MSL.posSum
  refine Finset.sum_congr rfl fun j _ => ?_
  rw [posKeep_congr_row s s' pv pv' ng ng' r r' hs hpv hng j]
  unfold Cert.MSL.posTerm
  rw [hs j]

include hs hpv hng in
theorem negSum_congr_row : Cert.MSL.negSum s pv ng r = Cert.MSL.negSum s' pv' ng' r' := by
  unfold Cert.MSL.negSum
  refine Finset.sum_congr rfl fun j _ => ?_
  rw [negKeep_congr_row s s' pv pv' ng ng' r r' hs hpv hng j]
  unfold Cert.MSL.negTerm
  rw [hs j]

include hs hpv hng in
/-- The specification's row loss of row `r` reads only row `r` of the similarity matrix and of the two masks. -/
theorem lossSums_congr_row : Cert.MSL.lossSums s pv ng r = Cert.MSL.lossSums s' pv' ng' r' := by
  unfold Cert.MSL.lossSums Cert.MSL.lossBody
  rw [posSum_congr_row s s' pv pv' ng ng' r r' hs hpv hng, negSum_congr_row s s' pv pv' ng ng' r r' hs hpv hng]

end Congr

end Cert.KernelIdeal.Pay

end
-- ==== Proof.IdealValue.lean ====
/-
  From blocks to the array.  Grid point `t` of the kernel region loads rows 128·t … 128·t+127 of the normalised
  features and of the padded labels, and the two arrays whole, and writes back the 128 row losses of those rows.  The
  32 blocks tile the output array, so after the run entry `r` of the output is the loss of row `r`.
-/
import proofs.«140503_j48515950576321_2_alg».proof.Proof.IdealLaunch
import proofs.«140503_j48515950576321_2_alg».proof.Proof.Spec
import proofs.«140503_j48515950576321_2_alg».proof.Proof.PayDots
import proofs.«140503_j48515950576321_2_alg».proof.Proof.PayMinMax
import proofs.«140503_j48515950576321_2_alg».proof.Proof.PayLoss
import Idealize.ShloMosaic.Lib.Pipeline.Value
import Idealize.ShloMosaic.Lib.ValueIdx

set_option maxRecDepth 16384

noncomputable section

namespace Cert.KernelIdeal.RowValue

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the row-block windows and the output follow the point, the whole-array
    windows stay at block 0. -/
theorem idx_facts : ∀ t : Fin cfg0.N, (grid0.coords t 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

/-- Row `p` of the features block at point `t` is row 128·t + p of the array. -/
theorem blk0_at (c : Dev nD) (t : Fin cfg0.N) (p : Fin 128) (k : Fin 512) (r : Fin 4096) (hr : r.val = t.val * 128 + p.val) :
    iblk m c 0 t (ix2 p k) = V m c main_v2 (ix2 r k) := by
  obtain ⟨-, e0, e1, -⟩ := idx_facts t
  show V m c main_v2 (((cfg0.win 0).blk t).view.emb (ix2 p k)) = V m c main_v2 (ix2 r k)
  refine congrArg _ (funext fun a => Fin.ext ?_)
  match a with
  | ⟨0, _⟩ => show win0_0.index t (0 : Fin 2) * 128 + 1 * p.val = r.val; omega
  | ⟨1, _⟩ => show win0_0.index t (1 : Fin 2) * 512 + 1 * k.val = k.val; omega

/-- The second features window holds the whole array at every point. -/
theorem blk1_at (c : Dev nD) (t : Fin cfg0.N) (y : S4096x512.Idx) : iblk m c 1 t y = V m c main_v2 y := by
  obtain ⟨-, -, -, e0, e1, -⟩ := idx_facts t
  show V m c main_v2 (((cfg0.win 1).blk t).view.emb y) = V m c main_v2 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 512 + 1 * (y 1).val = (y 1).val; omega

theorem blk2_at (c : Dev nD) (t : Fin cfg0.N) (p : Fin 128) (k : Fin 128) (r : Fin 4096) (hr : r.val = t.val * 128 + p.val) :
    iblk m c 2 t (ix2 p k) = V m c main_v4 (ix2 r k) := by
  obtain ⟨-, -, -, -, -, e0, e1, -⟩ := idx_facts t
  show V m c main_v4 (((cfg0.win 2).blk t).view.emb (ix2 p k)) = V m c main_v4 (ix2 r k)
  refine congrArg _ (funext fun a => Fin.ext ?_)
  match a with
  | ⟨0, _⟩ => show win0_2.index t (0 : Fin 2) * 128 + 1 * p.val = r.val; omega
  | ⟨1, _⟩ => show win0_2.index t (1 : Fin 2) * 128 + 1 * k.val = k.val; omega

theorem blk3_at (c : Dev nD) (t : Fin cfg0.N) (y : S4096x128.Idx) : iblk m c 3 t y = V m c main_v4 y := by
  obtain ⟨-, -, -, -, -, -, -, e0, e1, -⟩ := idx_facts t
  show V m c main_v4 (((cfg0.win 3).blk t).view.emb y) = V m c main_v4 y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 128 + 1 * (y 1).val = (y 1).val; omega

/-- An index of the output array is in point `t`'s block iff it lies in rows 128·t … 128·t+127. -/
theorem mem_blk4 (t : Fin cfg0.N) (i : S4096.Idx) :
    i ∈ ((cfg0.win 4).blk t).view.set ↔ ∀ a : Fin 1, win0_4.index t a * S128.size a ≤ (i a).val ∧ (i a).val < win0_4.index t a * S128.size a + S128.size a := by
  show i ∈ ((View.whole main_v5).slice (win0_4.rect t)).set ↔ _
  rw [View.set_slice_whole, Rect.mem_set_unit]
  exact Iff.rfl

/-- Every row is in some point's block: the blocks tile the output array. -/
theorem cover4 (i : S4096.Idx) : ∃ t : Fin cfg0.N, (cfg0.win 4).flush t = true ∧ i ∈ ((cfg0.win 4).blk t).view.set := by
  have hi : (i 0).val < 4096 := (i 0).isLt
  refine ⟨⟨(i 0).val / 128, by show _ < grid0.N; rw [N_0]; omega⟩, flush0_4 _, ?_⟩
  rw [mem_blk4]
  intro a
  obtain ⟨-, -, -, -, -, -, -, -, -, e⟩ := idx_facts ⟨(i 0).val / 128, by show _ < grid0.N; rw [N_0]; omega⟩
  match a with
  | ⟨0, _⟩ =>
    show win0_4.index _ (0 : Fin 1) * 128 ≤ (i 0).val ∧ (i 0).val < win0_4.index _ (0 : Fin 1) * 128 + 128
    rw [e]
    show (i 0).val / 128 * 128 ≤ (i 0).val ∧ (i 0).val < (i 0).val / 128 * 128 + 128
    omega

/-- Row `r`'s loss as the kernel computes it from the normalised features `f` and the padded labels `lp`. -/
def rowVal (f : S4096x512.Idx → EReal) (lp : S4096x128.Idx → EReal) (r : Fin 4096) : EReal :=
  Cert.MSL.lossSums (Cert.MSL.simOf f) (Cert.MSL.pvK (Cert.MSL.simOf f) (Cert.MSL.labDotPad lp)) (Cert.MSL.ngK (Cert.MSL.labDotPad lp)) r

/-- The value the body stores for row `p` of point `i`'s block is the loss of row 128·i + p. -/
theorem rowLoss_at (i : grid0.Coords) (v0 : Vec Ideal S128x512 .f32) (v2 : Vec Ideal S4096x512 .f32) (v5 : Vec Ideal S128x128 .bf16) (v7 : Vec Ideal S4096x128 .bf16)
    (p : Fin 128) (r : Fin 4096) (hr : r.val = (i 0).val * 128 + p.val) (f : S4096x512.Idx → EReal) (lp : S4096x128.Idx → EReal)
    (h0 : ∀ k, v0 (ix2 p k) = f (ix2 r k)) (h2 : v2 = f) (h5 : ∀ k, v5 (ix2 p k) = lp (ix2 r k)) (h7 : v7 = lp) :
    k0_pay1 (F := Ideal) (k0_pay2 v0 v2) (k0_pay4 i v0 v2 v5 v7) (k0_pay5 i v0 v2 v5 v7) (k0_pay6 i v0 v2 v5 v7) (ix1 p) = rowVal f lp r := by
  subst h2 h7
  rw [Pay.pay1_at]
  have hs : ∀ j : Fin 4096, Cert.MSL.simOf v2 r j = k0_pay2 (F := Ideal) v0 v2 (ix2 p j) := fun j => by
    rw [Pay.pay2_at]; unfold Cert.MSL.simOf; exact Finset.sum_congr rfl fun k _ => by rw [h0]
  have h3 : ∀ j : Fin 4096, k0_pay3 (F := Ideal) v5 v7 (ix2 p j)
      = Ideal.cmp .ogt (Cert.MSL.labDotPad v7 r j) (Ideal.ofBits .f32 0x3F000000#32) := fun j => by
    rw [Pay.pay3_at]; unfold Cert.MSL.labDotPad
    exact congrArg (fun x => Ideal.cmp .ogt x _) (Finset.sum_congr rfl fun k _ => by rw [h5])
  have hpv : ∀ j : Fin 4096, Cert.MSL.pvK (Cert.MSL.simOf v2) (Cert.MSL.labDotPad v7) r j
      = k0_pay4 (F := Ideal) i v0 v2 v5 v7 (ix2 p j) := fun j => by
    have hd : (if r = j then (0#1 : BitVec 1) else 1#1) = (if (i 0).val * 128 + p.val = j.val then 0#1 else 1#1) := by
      by_cases h : r = j
      · rw [if_pos h, if_pos (by rw [← hr, h])]
      · rw [if_neg h, if_neg (fun e => h (Fin.ext (by omega)))]
    rw [Pay.pay4_at, h3, ← hs]; unfold Cert.MSL.pvK; rw [hd]
  have hng : ∀ j : Fin 4096, Cert.MSL.ngK (Cert.MSL.labDotPad v7) r j
      = IntOp.xori (k0_pay3 (F := Ideal) v5 v7 (ix2 p j)) 1#1 := fun j => by rw [h3]; rfl
  unfold rowVal
  rw [Pay.lossSums_congr_row _ (fun _ j => k0_pay2 (F := Ideal) v0 v2 (ix2 p j)) _ (fun _ j => k0_pay4 (F := Ideal) i v0 v2 v5 v7 (ix2 p j))
    _ (fun _ j => IntOp.xori (k0_pay3 (F := Ideal) v5 v7 (ix2 p j)) 1#1) r r hs hpv hng, Pay.lossSums_rowconst]
  have h5' : ∀ j : Fin 4096, k0_pay5 (F := Ideal) i v0 v2 v5 v7 (ix2 p j)
      = Cert.MSL.negKeep (fun _ j => k0_pay2 (F := Ideal) v0 v2 (ix2 p j)) (fun _ j => k0_pay4 (F := Ideal) i v0 v2 v5 v7 (ix2 p j))
          (fun _ j => IntOp.xori (k0_pay3 (F := Ideal) v5 v7 (ix2 p j)) 1#1) r j := fun j => by
    rw [Pay.pay5_at]; rfl
  have h6' : k0_pay6 (F := Ideal) i v0 v2 v5 v7 (ix2 p (0 : Fin 1))
      = Cert.MSL.negMax (fun _ j => k0_pay2 (F := Ideal) v0 v2 (ix2 p j)) (fun _ j => k0_pay4 (F := Ideal) i v0 v2 v5 v7 (ix2 p j))
          (fun _ j => IntOp.xori (k0_pay3 (F := Ideal) v5 v7 (ix2 p j)) 1#1) r := by
    rw [Pay.pay6_at]; unfold Cert.MSL.negMax; simp only [h5']
  simp only [h5', h6']

/-- What point `t` writes back is block `t` of the row losses. -/
theorem flushed4_eq (c : Dev nD) (t : Fin cfg0.N) :
    (dats m 0 c).flushed 4 t = ((cfg0.win 4).blk t).view.read (Elt Ideal) (fun i : S4096.Idx => rowVal (V m c main_v2) (V m c main_v4) (i 0)) := by
  show (cfg0.win 4).cut (grid0.coords t) ((dats m 0 c).after 4 t) = _
  rw [after0_4]
  unfold out0_4
  rw [View.canon_unit_zero hz1]
  unfold rowLoss
  simp only [View.ld_unit_zero (S := S128x512) hz2, View.ld_unit_zero (S := S4096x512) hz2, View.ld_unit_zero (S := S128x128) hz2, View.ld_unit_zero (S := S4096x128) hz2]
  obtain ⟨e0, -, -, -, -, -, -, -, -, e4⟩ := idx_facts t
  funext y
  obtain ⟨p, rfl⟩ : ∃ p : Fin 128, y = ix1 p := ⟨y 0, eq_ix1 y⟩
  have hp : p.val < 128 := p.isLt
  have ht : t.val < 32 := (show t.val < grid0.N from t.isLt).trans_eq N_0
  have hr : t.val * 128 + p.val < 4096 := by omega
  refine (rowLoss_at (grid0.coords t) (iblk m c 0 t) (iblk m c 1 t) (iblk m c 2 t) (iblk m c 3 t) p ⟨t.val * 128 + p.val, hr⟩ (by rw [e0])
    (V m c main_v2) (V m c main_v4) (fun k => blk0_at m c t p k _ rfl) (funext fun y => blk1_at m c t y)
    (fun k => blk2_at m c t p k _ rfl) (funext fun y => blk3_at m c t y)).trans ?_
  show _ = rowVal (V m c main_v2) (V m c main_v4) ((((cfg0.win 4).blk t).view.emb (ix1 p)) 0)
  refine congrArg _ (Fin.ext ?_)
  show t.val * 128 + p.val = win0_4.index t (0 : Fin 1) * 128 + 1 * p.val
  omega

/-- After the run the output array holds every row's loss. -/
theorem final4 (c : Dev nD) : (dats m 0 c).arrAt 4 cfg0.N = fun i : S4096.Idx => rowVal (V m c main_v2) (V m c main_v4) (i 0) :=
  (dats m 0 c).arrAt_eq_of_cover 4 _ (fun t _ => flushed4_eq m c t) cover4

/-- The host's sum of the 4096 row losses over 4096 is their mean. -/
theorem tail_eq (G : S4096.Idx → EReal) :
    Host.divf (Host.reduceAdd (F := Ideal) G (constant (F := Ideal) S_ .f32 0x00000000#32) reducesTo_S4096_S_d0 h_S_)
        (constant (F := Ideal) S_ .f32 0x45800000#32)
      = fun _ => Cert.MSL.meanOf (fun r => G (ix1 r)) := by
  funext i
  have hs : Host.reduceAdd (F := Ideal) G (constant (F := Ideal) S_ .f32 0x00000000#32) reducesTo_S4096_S_d0 h_S_ i
      = Ideal.ofBits .f32 0x00000000#32 + ∑ j : S4096.Idx, G j := by
    simp only [Host.reduceAdd, Ideal.hostReduceAdd_def]
    exact Ideal.hostReduceAdd_total reducesTo_S4096_S_d0 (fun b => b.elim0) G _ i
  show FloatOps.hostDivf _ _ = _
  rw [hs, Ideal.ofBits_zero_f32, zero_add]
  have e : ∑ j : S4096.Idx, G j = ∑ r : Fin 4096, G (ix1 r) :=
    (Equiv.sum_comp (⟨ix1, fun j => j 0, fun _ => rfl, fun j => (eq_ix1 j).symm⟩ : Fin 4096 ≃ S4096.Idx) G).symm
  rw [e]
  rfl

/-- The idealized kernel's run with its result named: the mean of the row losses. -/
theorem run : θ_run defs (onTc (τ := τ) (main (F := Ideal))) ⟨m, fun _ => 0, ρ⟩ (fun r => ∀ c : Dev nD,
      r.2.mem ((c.tc : Thread nD τ).loc main_v7) = (fun _ => Cert.MSL.kernelLoss (V m c main_v2) (V m c main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [final4, tail_eq]; rfl), (h c).2⟩) (run_value m ρ)

end Cert.KernelIdeal.RowValue

end
-- ==== Proof.HeadRead.lean ====
/-
  The two arrays the kernel region finds, read at an index over the extended reals.  Before the region the host
  divides every feature by the root of the sum of squares of its row (a multiply, a sum along the row from the
  constant 0, two broadcasts, a square root and a divide), and pads the labels from 100 to 128 columns with the
  integer 0 converted to a float, then narrows them to bf16 (the identity over the extended reals).
-/
import proofs.«140503_j48515950576321_2_alg».proof.Proof.IdealRegion
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.KernelVsHost

set_option maxRecDepth 16384

noncomputable section

namespace Cert.KernelIdeal.HeadRead

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (c : Dev nD)

/-- The features and the labels in the launch memory of core c. -/
abbrev x0 : S4096x512.Idx → EReal := m ((c : Thread nD τ).loc main_arg0)
abbrev x1 : S4096x100.Idx → EReal := m ((c : Thread nD τ).loc main_arg1)

/-- The normalised features as the host operations' term. -/
theorem features_term :
    (Region.V m c main_v2 : S4096x512.Idx → EReal)
      = Host.divf (F := Ideal) (x0 m c) (broadcastInDim S4096x512 ![0, 1] bcast_S4096x1_S4096x512_0_1
          (Host.sqrt (F := Ideal) (broadcastInDim S4096x1 ![0] bcast_S4096_S4096x1_0
            (Host.reduceAdd (F := Ideal) (mulf (F := Ideal) (x0 m c) (x0 m c)) (constant (F := Ideal) S_ .f32 0x00000000#32)
              reducesTo_S4096x512_S4096_d1 h_S_)))) := by
  dsimp only [Region.V, Region.V0]
  simp only [Gen.hostOps0, Gen.hostOps0_1, Gen.hostOps0_2, Gen.hostOps0_3, List.flatten_cons, List.flatten_nil,
    List.append_nil, List.cons_append, List.nil_append]
  after_results
  rfl

/-- The padded labels as the host operations' term. -/
theorem labels_term :
    (Region.V m c main_v4 : S4096x128.Idx → EReal)
      = truncf (F := Ideal) .bf16 (pad S4096x128 ![0, 0] ![0, 28] ![0, 0] (x1 m c)
          (sitofp (F := Ideal) .f32 (constantI S_ 32 0#32)) pads_S4096x100_S4096x128_000_0280 h_S_) bitsLt_bf16_f32 := by
  dsimp only [Region.V, Region.V0]
  simp only [Gen.hostOps0, Gen.hostOps0_1, Gen.hostOps0_2, Gen.hostOps0_3, List.flatten_cons, List.flatten_nil,
    List.append_nil, List.cons_append, List.nil_append]
  after_results
  rfl

/-- The sum along a row, with a witness that names the inserted coordinate. -/
theorem reduces_rows : S4096x512.Reduces [1] S4096 := by decide

/-- The normalised features: each entry divided by the root of the sum of squares of its row. -/
theorem features_at (i : Fin 4096) (k : Fin 512) :
    Region.V m c main_v2 (ix2 i k)
      = Ideal.div (x0 m c (ix2 i k))
          (Ideal.sqrt (Ideal.ofBits .f32 0x00000000#32 + ∑ k' : Fin 512, x0 m c (ix2 i k') * x0 m c (ix2 i k'))) := by
  rw [features_term]
  generalize x0 m c = x
  have hb1 : ∀ y : S4096x1.Idx → EReal,
      broadcastInDim S4096x512 ![0, 1] bcast_S4096x1_S4096x512_0_1 y (ix2 i k) = y (ix2 i (0 : Fin 1)) := fun y =>
    broadcastInDim_apply _ bcast_S4096x1_S4096x512_0_1 y (ix2 i k) (ix2 i (0 : Fin 1)) (fun a => match a with
      | ⟨0, _⟩ => by show i.val = if (4096 : Nat) = 1 then 0 else i.val; rw [if_neg (by decide)]
      | ⟨1, _⟩ => by show 0 = if (1 : Nat) = 1 then 0 else k.val; rw [if_pos rfl])
  have hb2 : ∀ y : S4096.Idx → EReal,
      broadcastInDim S4096x1 ![0] bcast_S4096_S4096x1_0 y (ix2 i (0 : Fin 1)) = y (ix1 i) := fun y =>
    broadcastInDim_apply _ bcast_S4096_S4096x1_0 y (ix2 i (0 : Fin 1)) (ix1 i) (fun a => match a with
      | ⟨0, _⟩ => by show i.val = if (4096 : Nat) = 1 then 0 else i.val; rw [if_neg (by decide)])
  simp only [Host.divf, Host.sqrt, hb1, hb2, Host.reduceAdd, Ideal.hostReduceAdd_def, Ideal.hostDivf_def,
    Ideal.hostUnary_sqrt_def]
  rw [Ideal.hostReduceAdd_single reducesTo_S4096x512_S4096_d1 reduces_rows]
  refine congrArg (fun z => Ideal.div (x (ix2 i k)) (Ideal.sqrt (Ideal.ofBits .f32 0x00000000#32 + z)))
    (Finset.sum_congr rfl fun k' _ => ?_)
  have e : reduces_rows.lift (ix1 i) k' = ix2 i k' :=
    funext fun a => Fin.ext (by match a with | ⟨0, _⟩ => rfl | ⟨1, _⟩ => rfl)
  rw [e]
  rfl

/-- The padded labels: the label where the column is below 100, and 0 in the 28 padding columns. -/
theorem labels_at (i : Fin 4096) (k : Fin 128) :
    Region.V m c main_v4 (ix2 i k) = if h : k.val < 100 then x1 m c (ix2 i ⟨k.val, h⟩) else 0 := by
  rw [labels_term]
  generalize x1 m c = x
  show pad S4096x128 ![0, 0] ![0, 28] ![0, 0] x (sitofp (F := Ideal) .f32 (constantI S_ 32 0#32))
    pads_S4096x100_S4096x128_000_0280 h_S_ (ix2 i k) = _
  by_cases h : k.val < 100
  · rw [dif_pos h]
    exact pad_apply_of_inside _ _ _ x _ pads_S4096x100_S4096x128_000_0280 h_S_ (ix2 i k) (ix2 i ⟨k.val, h⟩)
      (fun a => match a with
        | ⟨0, _⟩ => by show i.val = 0 + i.val * (0 + 1); omega
        | ⟨1, _⟩ => by show k.val = 0 + k.val * (0 + 1); omega)
  · rw [dif_neg h, pad_apply_of_not_inside _ _ _ x _ pads_S4096x100_S4096x128_000_0280 h_S_ (ix2 i k) ⟨1, by decide⟩
      (fun hin => h (by have := hin.2.2; simpa using this))]
    show (((0#32 : BitVec 32).toInt : ℝ) : EReal) = 0
    simp

end Cert.KernelIdeal.HeadRead

end
-- ==== Proof.LibHostRowFold.lean ====
/-
  A fold along the rows of a matrix, as the host computes it.

  The host's one-operand reduce with a commutative and associative body, taken along axis 1 of an `[a, b]` array and
  read at row `i`, is the fold of the body over the entries `(i, 0), …, (i, b − 1)` of that row, started from the
  initial value's one element.  Commutativity and associativity make the fold independent of the order in which the
  row is visited, so it is a fold over the finite set of column numbers.
-/
import Idealize.ShloMosaic.PureOps.Reduce
import Idealize.ShloMosaic.PureOps.Contract
import Idealize.ShloMosaic.Lib.ValueIdx

namespace Cert.LibHostRowFold

open Idealize.ShloMosaic Idealize.ShloMosaic.ValueIdx

/-- For a commutative and associative operation `f` the host's reduce of an `[a, b]` array along axis 1 is, at row
    `i`, the fold of `f` from the initial value over the column numbers `k` of the entries `(i, k)`. -/
theorem hostReduce_rows {α : Type} {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce f x init h' hu (ix1 i)
      = (Finset.univ : Finset (Fin b)).fold f (init (Shape.Idx.first hu)) (fun k => x (ix2 i k)) := by
  rw [Host.reduce_eq_fold_single f x init h' h hu]
  refine congrArg (fun g => (Finset.univ : Finset (Fin b)).fold f (init (Shape.Idx.first hu)) g) (funext fun k => ?_)
  refine congrArg x (funext fun ax => Fin.ext ?_)
  match ax with
  | ⟨0, _⟩ => rfl
  | ⟨1, _⟩ => rfl

end Cert.LibHostRowFold
-- ==== Proof.RefValue1.lean ====
/-
  The reference program read stage by stage at explicit coordinates, first part: the similarity matrix, the label
  products, the two masks, and the four folds along a row (the smallest valid positive, the largest kept negative,
  and the two "some entry is set" folds).
-/
import proofs.«140503_j48515950576321_2_alg».proof.Proof.Gen.ReferenceIdeal.Read
import proofs.«140503_j48515950576321_2_alg».proof.Proof.Spec
import proofs.«140503_j48515950576321_2_alg».proof.Proof.LibHostRowFold

noncomputable section

namespace Cert.RefValue

open Cert.ReferenceIdeal Cert.ReferenceIdeal.Gen Cert.ReferenceIdeal.Read Idealize.ShloMosaic Idealize.ShloMosaic.ValueIdx Idealize.SL.Sem Idealize.ShloMosaic.StableHlo
open scoped BigOperators

/-- The features and the labels, as arrays of extended reals. -/
abbrev X0 := (⟨S4096x512, .f32⟩ : BufTy).Contents (Elt Ideal)
abbrev X1 := (⟨S4096x100, .f32⟩ : BufTy).Contents (Elt Ideal)

/-! ## The bitwise or of one-bit words is commutative and associative -/

open Cert.LibHostRowFold

instance : Std.Commutative (IntOp.ori (w := 1)) := ⟨fun x y => by revert x y; decide⟩
instance : Std.Associative (IntOp.ori (w := 1)) := ⟨fun x y z => by revert x y z; decide⟩

theorem reduces_rows : S4096x4096.Reduces [1] S4096 := by decide

/-! ## The similarity matrix and the label products -/

theorem v4_at (x0 : X0) (i j : Fin 4096) :
    val_main_v4 (F := Ideal) x0 (ix2 i j) = Cert.MSL.simOf (val_main_v2 (F := Ideal) x0) i j := by
  rw [val_main_v4_apply]
  unfold Cert.MSL.simOf
  refine Finset.sum_congr rfl fun k _ => ?_
  rw [val_main_v3_apply]
  have e1 : lidx_main_v4 (ix2 i j) k = ix2 i k :=
    funext fun a => Fin.ext (by match a with | ⟨0, _⟩ => rfl | ⟨1, _⟩ => rfl)
  have e2 : idx_main_v3 (ridx_main_v4 (ix2 i j) k) = ix2 j k :=
    funext fun a => Fin.ext (by match a with | ⟨0, _⟩ => rfl | ⟨1, _⟩ => rfl)
  rw [e1, e2]

theorem v6_at (x1 : X1) (i j : Fin 4096) :
    val_main_v6 (F := Ideal) x1 (ix2 i j) = Cert.MSL.labDot x1 i j := by
  rw [val_main_v6_apply]
  unfold Cert.MSL.labDot
  refine Finset.sum_congr rfl fun k _ => ?_
  rw [val_main_v5_apply]
  have e1 : lidx_main_v6 (ix2 i j) k = ix2 i k :=
    funext fun a => Fin.ext (by match a with | ⟨0, _⟩ => rfl | ⟨1, _⟩ => rfl)
  have e2 : idx_main_v5 (ridx_main_v6 (ix2 i j) k) = ix2 j k :=
    funext fun a => Fin.ext (by match a with | ⟨0, _⟩ => rfl | ⟨1, _⟩ => rfl)
  rw [e1, e2]

/-- The reference's similarity matrix, label products and masks. -/
abbrev simR (x0 : X0) : Fin 4096 → Fin 4096 → EReal := Cert.MSL.simOf (val_main_v2 (F := Ideal) x0)
abbrev ldR (x1 : X1) : Fin 4096 → Fin 4096 → EReal := Cert.MSL.labDot x1
abbrev pv (x0 : X0) (x1 : X1) : Fin 4096 → Fin 4096 → BitVec 1 := Cert.MSL.pvR (simR x0) (ldR x1)
abbrev ng (x1 : X1) : Fin 4096 → Fin 4096 → BitVec 1 := Cert.MSL.ngR (ldR x1)

/-! ## The masks -/

theorem v8_at (x1 : X1) (i j : Fin 4096) :
    val_main_v8 (F := Ideal) x1 (ix2 i j) = Ideal.cmp .ogt (ldR x1 i j) (Ideal.ofBits .f32 0x00000000#32) := by
  rw [val_main_v8_apply, v6_at, val_main_v7_apply, val_main_cst_apply] <;> rfl

theorem v9_at (x1 : X1) (i j : Fin 4096) :
    val_main_v9 (F := Ideal) x1 (ix2 i j) = ng x1 i j := by
  rw [val_main_v9_apply, v8_at] <;> rfl

theorem v11_at (x0 : X0) (i j : Fin 4096) :
    val_main_v11 (F := Ideal) x0 (ix2 i j) = Ideal.cmp .olt (simR x0 i j) (Ideal.ofBits .f32 0x3F7FFF58#32) := by
  rw [val_main_v11_apply, v4_at, val_main_v10_apply, val_main_cst_0_apply] <;> rfl

theorem v12_at (x0 : X0) (x1 : X1) (i j : Fin 4096) :
    val_main_v12 (F := Ideal) x0 x1 (ix2 i j) = pv x0 x1 i j := by
  rw [val_main_v12_apply, v8_at, v11_at] <;> rfl

/-! ## The smallest valid positive of a row -/

theorem v13_at (x0 : X0) (x1 : X1) (i j : Fin 4096) :
    val_main_v13 (F := Ideal) x0 x1 (ix2 i j)
      = Scalar.select (pv x0 x1 i j) (simR x0 i j) (Ideal.ofBits .f32 0x7F800000#32) := by
  rw [val_main_v13_apply, v12_at, v4_at, val_main_call1_v0_apply, val_main_cst_1_apply] <;> rfl

theorem v14_at (x0 : X0) (x1 : X1) (i : Fin 4096) :
    val_main_v14 (F := Ideal) x0 x1 (ix1 i) = Cert.MSL.posMin (simR x0) (pv x0 x1) i := by
  have h : val_main_v14 (F := Ideal) x0 x1 (ix1 i)
      = (Finset.univ : Finset (Fin 4096)).fold min (Ideal.ofBits .f32 0x7F800000#32)
          (fun k => val_main_v13 (F := Ideal) x0 x1 (ix2 i k)) :=
    hostReduce_rows (FloatOps.minimumf (F := Ideal) (φ := .f32)) (val_main_v13 (F := Ideal) x0 x1)
      (val_main_cst_2 (F := Ideal)) reducesTo_S4096x4096_S4096_d1 reduces_rows h_S_ i
  rw [h, funext fun k => v13_at x0 x1 i k]
  rfl

theorem v18_at (x0 : X0) (x1 : X1) (i j : Fin 4096) :
    val_main_v18 (F := Ideal) x0 x1 (ix2 i j) = Cert.MSL.posMin (simR x0) (pv x0 x1) i := by
  rw [val_main_v18_apply, val_main_v17_apply]
  have e : idx_main_v17 (idx_main_v18 (ix2 i j)) = ix1 i :=
    funext fun a => Fin.ext (by match a with | ⟨0, _⟩ => rfl)
  rw [e, v14_at]

/-! ## The negatives kept and the largest of them -/

theorem v16_at (x0 : X0) (i j : Fin 4096) :
    val_main_v16 (F := Ideal) x0 (ix2 i j) = simR x0 i j + Ideal.ofBits .f32 0x3DCCCCCD#32 := by
  rw [val_main_v16_apply, v4_at, val_main_v15_apply, val_main_cst_3_apply] <;> rfl

theorem v20_at (x0 : X0) (x1 : X1) (i j : Fin 4096) :
    val_main_v20 (F := Ideal) x0 x1 (ix2 i j) = Cert.MSL.negKeep (simR x0) (pv x0 x1) (ng x1) i j := by
  rw [val_main_v20_apply, v9_at, val_main_v19_apply, v16_at, v18_at] <;> rfl

/-- Minus the word of `+∞` is the word of `−∞`. -/
theorem v21_at (i : S_.Idx) : val_main_v21 (F := Ideal) i = Ideal.ofBits .f32 0xFF800000#32 := by
  rw [val_main_v21_apply, val_main_cst_4_apply]
  simp [Ideal.ofBits, Ideal.ieee]

theorem v22_at (x0 : X0) (x1 : X1) (i j : Fin 4096) :
    val_main_v22 (F := Ideal) x0 x1 (ix2 i j)
      = Scalar.select (Cert.MSL.negKeep (simR x0) (pv x0 x1) (ng x1) i j) (simR x0 i j)
          (Ideal.ofBits .f32 0xFF800000#32) := by
  rw [val_main_v22_apply, v20_at, v4_at, val_main_call2_v0_apply, v21_at]

theorem v23_at (x0 : X0) (x1 : X1) (i : Fin 4096) :
    val_main_v23 (F := Ideal) x0 x1 (ix1 i) = Cert.MSL.negMax (simR x0) (pv x0 x1) (ng x1) i := by
  have h : val_main_v23 (F := Ideal) x0 x1 (ix1 i)
      = (Finset.univ : Finset (Fin 4096)).fold max (Ideal.ofBits .f32 0xFF800000#32)
          (fun k => val_main_v22 (F := Ideal) x0 x1 (ix2 i k)) :=
    hostReduce_rows (FloatOps.maximumf (F := Ideal) (φ := .f32)) (val_main_v22 (F := Ideal) x0 x1)
      (val_main_cst_5 (F := Ideal)) reducesTo_S4096x4096_S4096_d1 reduces_rows h_S_ i
  rw [h, funext fun k => v22_at x0 x1 i k]
  rfl

theorem v27_at (x0 : X0) (x1 : X1) (i j : Fin 4096) :
    val_main_v27 (F := Ideal) x0 x1 (ix2 i j) = Cert.MSL.negMax (simR x0) (pv x0 x1) (ng x1) i := by
  rw [val_main_v27_apply, val_main_v26_apply]
  have e : idx_main_v26 (idx_main_v27 (ix2 i j)) = ix1 i :=
    funext fun a => Fin.ext (by match a with | ⟨0, _⟩ => rfl)
  rw [e, v23_at]

/-! ## The positives kept -/

theorem v25_at (x0 : X0) (i j : Fin 4096) :
    val_main_v25 (F := Ideal) x0 (ix2 i j) = simR x0 i j - Ideal.ofBits .f32 0x3DCCCCCD#32 := by
  rw [val_main_v25_apply, v4_at, val_main_v24_apply, val_main_cst_6_apply] <;> rfl

theorem v29_at (x0 : X0) (x1 : X1) (i j : Fin 4096) :
    val_main_v29 (F := Ideal) x0 x1 (ix2 i j) = Cert.MSL.posKeep (simR x0) (pv x0 x1) (ng x1) i j := by
  rw [val_main_v29_apply, v12_at, val_main_v28_apply, v25_at, v27_at] <;> rfl

/-! ## "Some positive is kept", "some negative is kept" -/

theorem v30_at (x0 : X0) (x1 : X1) (i : Fin 4096) :
    val_main_v30 (F := Ideal) x0 x1 (ix1 i)
      = Cert.MSL.anyOf fun j => Cert.MSL.posKeep (simR x0) (pv x0 x1) (ng x1) i j := by
  have h : val_main_v30 (F := Ideal) x0 x1 (ix1 i)
      = (Finset.univ : Finset (Fin 4096)).fold IntOp.ori 0#1 (fun k => val_main_v29 (F := Ideal) x0 x1 (ix2 i k)) :=
    hostReduce_rows (IntOp.ori (w := 1)) (val_main_v29 (F := Ideal) x0 x1)
      (val_main_c (F := Ideal)) reducesTo_S4096x4096_S4096_d1 reduces_rows h_S_ i
  rw [h, funext fun k => v29_at x0 x1 i k]
  rfl

theorem v31_at (x0 : X0) (x1 : X1) (i : Fin 4096) :
    val_main_v31 (F := Ideal) x0 x1 (ix1 i)
      = Cert.MSL.anyOf fun j => Cert.MSL.negKeep (simR x0) (pv x0 x1) (ng x1) i j := by
  have h : val_main_v31 (F := Ideal) x0 x1 (ix1 i)
      = (Finset.univ : Finset (Fin 4096)).fold IntOp.ori 0#1 (fun k => val_main_v20 (F := Ideal) x0 x1 (ix2 i k)) :=
    hostReduce_rows (IntOp.ori (w := 1)) (val_main_v20 (F := Ideal) x0 x1)
      (val_main_c_7 (F := Ideal)) reducesTo_S4096x4096_S4096_d1 reduces_rows h_S_ i
  rw [h, funext fun k => v20_at x0 x1 i k]
  rfl

theorem v32_at (x0 : X0) (x1 : X1) (i : Fin 4096) :
    val_main_v32 (F := Ideal) x0 x1 (ix1 i)
      = IntOp.andi (Cert.MSL.anyOf fun j => Cert.MSL.posKeep (simR x0) (pv x0 x1) (ng x1) i j)
          (Cert.MSL.anyOf fun j => Cert.MSL.negKeep (simR x0) (pv x0 x1) (ng x1) i j) := by
  rw [val_main_v32_apply, v30_at, v31_at]

end Cert.RefValue

end
-- ==== Proof.RefValue.lean ====
/-
  The reference program read stage by stage at explicit coordinates, second part: the exponential terms and their
  sums over the kept entries, the loss of a row, and the mean over the rows.  The result of the reference program is
  the multi-similarity loss of the normalised features and the labels, with the reference's masks and its reading of
  a "live" row (some positive kept and some negative kept); the normalised features are the features divided by the
  root of the sum of squares of their row.
-/
import proofs.«140503_j48515950576321_2_alg».proof.Proof.Gen.ReferenceIdeal.Read
import proofs.«140503_j48515950576321_2_alg».proof.Proof.Spec
import proofs.«140503_j48515950576321_2_alg».proof.Proof.RefValue1

noncomputable section

namespace Cert.RefValue

open Cert.ReferenceIdeal Cert.ReferenceIdeal.Gen Cert.ReferenceIdeal.Read Idealize.ShloMosaic Idealize.ShloMosaic.ValueIdx Idealize.SL.Sem Idealize.ShloMosaic.StableHlo
open scoped BigOperators

/-! ## The exponential terms and their sums over the kept entries -/

theorem v37_at (x0 : X0) (i j : Fin 4096) :
    val_main_v37 (F := Ideal) x0 (ix2 i j) = Cert.MSL.posTerm (simR x0) i j := by
  rw [val_main_v37_apply, val_main_v36_apply, val_main_v35_apply, val_main_cst_9_apply, val_main_v34_apply, v4_at,
    val_main_v33_apply, val_main_cst_8_apply] <;> rfl

theorem v38_at (x0 : X0) (x1 : X1) (i j : Fin 4096) :
    val_main_v38 (F := Ideal) x0 x1 (ix2 i j)
      = Scalar.select (Cert.MSL.posKeep (simR x0) (pv x0 x1) (ng x1) i j) (Cert.MSL.posTerm (simR x0) i j)
          (Ideal.ofBits .f32 0x00000000#32) := by
  rw [val_main_v38_apply, v29_at, v37_at, val_main_call3_v1_apply, val_main_call3_v0_apply,
    val_main_cst_10_apply] <;> rfl

theorem v39_at (x0 : X0) (x1 : X1) (i : Fin 4096) :
    val_main_v39 (F := Ideal) x0 x1 (ix1 i) = Cert.MSL.posSum (simR x0) (pv x0 x1) (ng x1) i := by
  rw [val_main_v39_apply, val_main_cst_11_apply, Ideal.ofBits_def, Ideal.ofBits_zero_f32, zero_add]
  unfold Cert.MSL.posSum
  refine Finset.sum_congr rfl fun k _ => ?_
  have e : idx_main_v39 (ix1 i) k = ix2 i k :=
    funext fun a => Fin.ext (by match a with | ⟨0, _⟩ => rfl | ⟨1, _⟩ => rfl)
  rw [e, v38_at]

theorem v44_at (x0 : X0) (i j : Fin 4096) :
    val_main_v44 (F := Ideal) x0 (ix2 i j) = Cert.MSL.negTerm (simR x0) i j := by
  rw [val_main_v44_apply, val_main_v43_apply, val_main_v42_apply, val_main_cst_13_apply, val_main_v41_apply, v4_at,
    val_main_v40_apply, val_main_cst_12_apply] <;> rfl

theorem v45_at (x0 : X0) (x1 : X1) (i j : Fin 4096) :
    val_main_v45 (F := Ideal) x0 x1 (ix2 i j)
      = Scalar.select (Cert.MSL.negKeep (simR x0) (pv x0 x1) (ng x1) i j) (Cert.MSL.negTerm (simR x0) i j)
          (Ideal.ofBits .f32 0x00000000#32) := by
  rw [val_main_v45_apply, v20_at, v44_at, val_main_call4_v1_apply, val_main_call4_v0_apply,
    val_main_cst_14_apply] <;> rfl

theorem v46_at (x0 : X0) (x1 : X1) (i : Fin 4096) :
    val_main_v46 (F := Ideal) x0 x1 (ix1 i) = Cert.MSL.negSum (simR x0) (pv x0 x1) (ng x1) i := by
  rw [val_main_v46_apply, val_main_cst_15_apply, Ideal.ofBits_def, Ideal.ofBits_zero_f32, zero_add]
  unfold Cert.MSL.negSum
  refine Finset.sum_congr rfl fun k _ => ?_
  have e : idx_main_v46 (ix1 i) k = ix2 i k :=
    funext fun a => Fin.ext (by match a with | ⟨0, _⟩ => rfl | ⟨1, _⟩ => rfl)
  rw [e, v45_at]

/-! ## The loss of a row -/

theorem v53_at (x0 : X0) (x1 : X1) (i : Fin 4096) :
    val_main_v53 (F := Ideal) x0 x1 (ix1 i) = Cert.MSL.lossBody (simR x0) (pv x0 x1) (ng x1) i := by
  rw [val_main_v53_apply, val_main_v49_apply, val_main_v47_apply, v39_at, val_main_v48_apply, val_main_cst_16_apply,
    val_main_v52_apply, val_main_v50_apply, v46_at, val_main_v51_apply, val_main_cst_17_apply] <;> rfl

theorem v54_at (x0 : X0) (x1 : X1) (i : Fin 4096) :
    val_main_v54 (F := Ideal) x0 x1 (ix1 i) = Cert.MSL.lossAny (simR x0) (pv x0 x1) (ng x1) i := by
  rw [val_main_v54_apply, v32_at, v53_at, val_main_call5_v1_apply, val_main_call5_v0_apply,
    val_main_cst_18_apply] <;> rfl

/-! ## The mean over the rows -/

/-- A row number is a rank-1 index. -/
def ix1Equiv : Fin 4096 ≃ S4096.Idx where
  toFun := ix1
  invFun j := j 0
  left_inv _ := rfl
  right_inv j := (eq_ix1 j).symm

/-- The reference program's result is the multi-similarity loss of the normalised features and the labels. -/
theorem result_eq (x0 : (⟨S4096x512, .f32⟩ : BufTy).Contents (Elt Ideal)) (x1 : (⟨S4096x100, .f32⟩ : BufTy).Contents (Elt Ideal)) :
    val_main_v56 (F := Ideal) x0 x1 = fun _ => Cert.MSL.referenceLoss (val_main_v2 (F := Ideal) x0) x1 := by
  funext i
  have hs : ∑ j : S4096.Idx, val_main_v54 (F := Ideal) x0 x1 j
      = ∑ r : Fin 4096, Cert.MSL.lossAny (simR x0) (pv x0 x1) (ng x1) r :=
    (Equiv.sum_comp ix1Equiv _).symm.trans (Finset.sum_congr rfl fun r _ => v54_at x0 x1 r)
  rw [val_main_v56_apply, val_main_v55_apply, val_main_cst_19_apply, val_main_cst_20_apply, hs, Ideal.ofBits_def,
    Ideal.ofBits_zero_f32, zero_add]
  rfl

/-- The normalised features: each entry divided by the root of the sum of squares of its row. -/
theorem normalised (x0 : (⟨S4096x512, .f32⟩ : BufTy).Contents (Elt Ideal)) (i : Fin 4096) (k : Fin 512) :
    val_main_v2 (F := Ideal) x0 (ix2 i k)
      = Ideal.div (x0 (ix2 i k))
          (Ideal.sqrt (Ideal.ofBits .f32 0x00000000#32 + ∑ k' : Fin 512, x0 (ix2 i k') * x0 (ix2 i k'))) := by
  have e : ∀ k' : Fin 512,
      val_main_call0_v0 (F := Ideal) x0 (idx_main_call0_v1 (idx_main_call0_v2 (idx_main_v1 (ix2 i k))) k')
        = x0 (ix2 i k') * x0 (ix2 i k') := fun k' => by
    have e' : idx_main_call0_v1 (idx_main_call0_v2 (idx_main_v1 (ix2 i k))) k' = ix2 i k' :=
      funext fun a => Fin.ext (by match a with | ⟨0, _⟩ => rfl | ⟨1, _⟩ => rfl)
    rw [e', val_main_call0_v0_apply] <;> rfl
  rw [val_main_v2_apply, val_main_v1_apply, val_main_v0_apply, val_main_call0_v2_apply, val_main_call0_v1_apply,
    val_main_call0_cst_apply]
  simp only [e]
  rfl

end Cert.RefValue

end
-- ==== Proof.Masks.lean ====
/-
  The masks of the two programs agree.

  The padded label product equals the label product (the 28 padding columns contribute 0 · 0).  A label product of
  {0, 1}-valued rows is a natural number, so "above 1/2" and "above 0" are the same test.  Exclusive-or with 1 on one
  bit is negation.  On the diagonal the similarity of a normalised row with itself is 1 (a nonzero row) or +∞ (a zero
  row: every entry is 0/0 = −∞ and (−∞)·(−∞) = +∞), in both cases not below 0.99999, so the "similarity below 0.99999"
  factor already removes the diagonal and the kernel's explicit off-diagonal factor changes nothing.
-/
import proofs.«140503_j48515950576321_2_alg».proof.Proof.Spec
import Mathlib.Analysis.Real.Sqrt
import Mathlib.Algebra.BigOperators.Fin
import Mathlib.Algebra.Order.BigOperators.Group.Finset
import Mathlib.Tactic

noncomputable section

namespace Cert.MSL

open Idealize.ShloMosaic Idealize.ShloMosaic.ValueIdx

/-! ## The constants -/

/-- The word 0x3F000000 is 1/2. -/
theorem word_half : Ideal.ofBits .f32 0x3F000000#32 = ((1 / 2 : ℝ) : EReal) := by
  simp [Ideal.ofBits, Ideal.ieee]
  rw [← EReal.coe_mul]
  norm_num

/-- The word 0x3F7FFF58 is a real number below 1. -/
theorem word_thr : ∃ t : ℝ, t < 1 ∧ Ideal.ofBits .f32 0x3F7FFF58#32 = (t : EReal) := by
  refine ⟨_, ?_, by simp [Ideal.ofBits, Ideal.ieee]; rfl⟩
  norm_num

/-! ## The padded label product -/

/-- The 28 padding columns are zero, so the product over 128 columns is the product over the first 100. -/
theorem labDotPad_eq (l : (⟨2, ![4096, 100]⟩ : Shape).Idx → EReal)
    (lp : (⟨2, ![4096, 128]⟩ : Shape).Idx → EReal)
    (hpad : ∀ (i : Fin 4096) (k : Fin 128), lp (ix2 i k) = if h : k.val < 100 then l (ix2 i ⟨k.val, h⟩) else 0)
    (i j : Fin 4096) : labDotPad lp i j = labDot l i j := by
  unfold labDotPad labDot
  have hsplit := Fin.sum_univ_add (M := EReal) (a := 100) (b := 28) (fun k : Fin (100 + 28) => lp (ix2 i k) * lp (ix2 j k))
  refine hsplit.trans ?_
  have h1 : ∀ (a : Fin 4096) (k : Fin 100), lp (ix2 a (Fin.castAdd 28 k)) = l (ix2 a k) := by
    intro a k
    have := hpad a (Fin.castAdd 28 k)
    rw [this, dif_pos (by simp)]
    rfl
  have h2 : ∀ (a : Fin 4096) (k : Fin 28), lp (ix2 a (Fin.natAdd 100 k)) = 0 := by
    intro a k
    have := hpad a (Fin.natAdd 100 k)
    rw [this, dif_neg (by simp)]
  simp only [h1, h2, mul_zero, Finset.sum_const_zero, add_zero]

/-! ## A sum of zeros and ones is a natural number -/

theorem sum_zero_one_nat {ι : Type*} (s : Finset ι) (g : ι → EReal) (hg : ∀ k, g k = 0 ∨ g k = 1) :
    ∃ n : ℕ, ∑ k ∈ s, g k = ((n : ℝ) : EReal) := by
  classical
  induction s using Finset.induction_on with
  | empty => exact ⟨0, by simp⟩
  | insert a s ha ih =>
    obtain ⟨n, hn⟩ := ih
    rw [Finset.sum_insert ha, hn]
    rcases hg a with h | h
    · exact ⟨n, by rw [h, zero_add]⟩
    · refine ⟨n + 1, ?_⟩
      rw [h, ← EReal.coe_one, ← EReal.coe_add, Nat.cast_add, Nat.cast_one, add_comm]

/-- The label product of two {0, 1}-valued rows is a natural number. -/
theorem labDot_nat (l : (⟨2, ![4096, 100]⟩ : Shape).Idx → EReal) (hbin : ∀ a, l a = 0 ∨ l a = 1) (i j : Fin 4096) :
    ∃ n : ℕ, labDot l i j = ((n : ℝ) : EReal) := by
  unfold labDot
  apply sum_zero_one_nat
  intro k
  rcases hbin (ix2 i k) with h | h <;> rcases hbin (ix2 j k) with h' | h' <;> simp [h, h']

/-! ## "Above 1/2" and "above 0" on a natural number -/

theorem cmp_half_eq_cmp_zero (n : ℕ) :
    Ideal.cmp .ogt ((n : ℝ) : EReal) (Ideal.ofBits .f32 0x3F000000#32)
      = Ideal.cmp .ogt ((n : ℝ) : EReal) (Ideal.ofBits .f32 0x00000000#32) := by
  rw [word_half, Ideal.ofBits_zero_f32]
  unfold Ideal.cmp
  simp only
  congr 1
  have key : (((1 / 2 : ℝ) : EReal) < ((n : ℝ) : EReal)) ↔ ((0 : EReal) < ((n : ℝ) : EReal)) := by
    rw [← EReal.coe_zero, EReal.coe_lt_coe_iff, EReal.coe_lt_coe_iff]
    rcases Nat.eq_zero_or_pos n with h | h
    · subst h; norm_num
    · have h1 : (1 : ℝ) ≤ (n : ℝ) := by exact_mod_cast h
      constructor <;> intro _ <;> linarith
  exact decide_eq_decide.mpr key

/-! ## One-bit facts -/

/-- Exclusive-or with 1 on one bit is negation. -/
theorem xori_one (m : BitVec 1) : IntOp.xori m 1#1 = ~~~m := by
  unfold IntOp.xori
  revert m
  decide

/-- When the last factor is 0, an extra factor 0 changes nothing. -/
theorem andi_diag (m c : BitVec 1) (hc : c = 0#1) :
    IntOp.andi (IntOp.andi m 0#1) c = IntOp.andi m c := by
  subst hc
  unfold IntOp.andi
  revert m
  decide

/-- A factor 1 changes nothing. -/
theorem andi_offdiag (m c : BitVec 1) :
    IntOp.andi (IntOp.andi m 1#1) c = IntOp.andi m c := by
  unfold IntOp.andi
  revert m c
  decide

/-! ## The diagonal -/

/-- The coercion of a finite sum of reals. -/
theorem coe_sum {ι : Type*} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A normalised row's similarity with itself is never below a threshold t < 1: it is 1 for a nonzero row and +∞ for
    a zero row. -/
theorem diag_not_lt
    (x0 : (⟨2, ![4096, 512]⟩ : Shape).Idx → EReal) (hfin : ∀ a, ∃ r : ℝ, x0 a = (r : EReal))
    (f : (⟨2, ![4096, 512]⟩ : Shape).Idx → EReal)
    (hnorm : ∀ (i : Fin 4096) (k : Fin 512), f (ix2 i k) = Ideal.div (x0 (ix2 i k)) (Ideal.sqrt (Ideal.ofBits .f32 0x00000000#32 + ∑ k' : Fin 512, x0 (ix2 i k') * x0 (ix2 i k'))))
    (i : Fin 4096) (t : ℝ) (ht : t < 1) : ¬ simOf f i i < (t : EReal) := by
  choose r hr using hfin
  set σ : ℝ := ∑ k : Fin 512, r (ix2 i k) * r (ix2 i k) with hσ
  have hS : Ideal.ofBits .f32 0x00000000#32 + ∑ k' : Fin 512, x0 (ix2 i k') * x0 (ix2 i k') = (σ : EReal) := by
    rw [Ideal.ofBits_zero_f32, zero_add, hσ, ← coe_sum]
    refine Finset.sum_congr rfl fun k _ => ?_
    rw [hr, EReal.coe_mul]
  have hσ0 : 0 ≤ σ := Finset.sum_nonneg fun k _ => mul_self_nonneg _
  have hsq : Ideal.sqrt (σ : EReal) = (Real.sqrt σ : EReal) := by
    rw [Ideal.sqrt_coe, if_neg (not_lt.mpr hσ0)]
  have hf : ∀ k, f (ix2 i k) = Ideal.div (r (ix2 i k) : EReal) (Real.sqrt σ : EReal) := by
    intro k; rw [hnorm, hS, hsq, hr]
  unfold simOf
  rcases hσ0.eq_or_lt with h0 | hpos
  · -- a zero row: every entry is 0/0 = ⊥, every product ⊤
    have hz : ∀ k, r (ix2 i k) = 0 := by
      intro k
      have := (Finset.sum_eq_zero_iff_of_nonneg (fun k _ => mul_self_nonneg (r (ix2 i k)))).mp h0.symm k (Finset.mem_univ k)
      exact mul_self_eq_zero.mp this
    have hbot : ∀ k, f (ix2 i k) = ⊥ := by
      intro k
      rw [hf, hz, ← h0, Real.sqrt_zero, EReal.coe_zero]
      simp [Ideal.div]
    have hprod : ∀ k, f (ix2 i k) * f (ix2 i k) = ⊤ := by
      intro k; rw [hbot, EReal.bot_mul_bot]
    have hle : (⊤ : EReal) ≤ ∑ k : Fin 512, f (ix2 i k) * f (ix2 i k) := by
      have := Finset.single_le_sum (f := fun k : Fin 512 => f (ix2 i k) * f (ix2 i k)) (s := Finset.univ)
        (fun k _ => by rw [hprod]; exact le_top) (Finset.mem_univ (0 : Fin 512))
      rwa [hprod] at this
    rw [top_le_iff.mp hle]
    exact not_top_lt
  · -- a nonzero row: the entries are real and their squares sum to 1
    have hn : Real.sqrt σ ≠ 0 := (Real.sqrt_pos.mpr hpos).ne'
    have hinv : (1 / Real.sqrt σ) * (1 / Real.sqrt σ) = 1 / σ := by
      rw [div_mul_div_comm, one_mul, Real.mul_self_sqrt hσ0]
    have hval : ∀ k, f (ix2 i k) * f (ix2 i k) = (((r (ix2 i k) * r (ix2 i k)) * (1 / σ) : ℝ) : EReal) := by
      intro k
      rw [hf, Ideal.div_coe hn, ← EReal.coe_mul, ← EReal.coe_mul, mul_mul_mul_comm, hinv]
    simp only [hval]
    rw [coe_sum, ← Finset.sum_mul, ← hσ, mul_one_div_cancel hpos.ne', EReal.coe_lt_coe_iff]
    exact not_lt.mpr ht.le

/-! ## The two pairs of masks -/

theorem masks_agree
    (x0 : (⟨2, ![4096, 512]⟩ : Shape).Idx → EReal) (hfin : ∀ a, ∃ r : ℝ, x0 a = (r : EReal))
    (f : (⟨2, ![4096, 512]⟩ : Shape).Idx → EReal)
    (hnorm : ∀ (i : Fin 4096) (k : Fin 512), f (ix2 i k) = Ideal.div (x0 (ix2 i k)) (Ideal.sqrt (Ideal.ofBits .f32 0x00000000#32 + ∑ k' : Fin 512, x0 (ix2 i k') * x0 (ix2 i k'))))
    (l : (⟨2, ![4096, 100]⟩ : Shape).Idx → EReal) (hbin : ∀ a, l a = 0 ∨ l a = 1)
    (lp : (⟨2, ![4096, 128]⟩ : Shape).Idx → EReal)
    (hpad : ∀ (i : Fin 4096) (k : Fin 128), lp (ix2 i k) = if h : k.val < 100 then l (ix2 i ⟨k.val, h⟩) else 0) :
    pvK (simOf f) (labDotPad lp) = pvR (simOf f) (labDot l) ∧ ngK (labDotPad lp) = ngR (labDot l) := by
  have hcmp : ∀ i j, Ideal.cmp .ogt (labDotPad lp i j) (Ideal.ofBits .f32 0x3F000000#32)
      = Ideal.cmp .ogt (labDot l i j) (Ideal.ofBits .f32 0x00000000#32) := by
    intro i j
    obtain ⟨n, hn⟩ := labDot_nat l hbin i j
    rw [labDotPad_eq l lp hpad, hn, cmp_half_eq_cmp_zero]
  constructor
  · funext i j
    unfold pvK pvR
    rw [hcmp]
    by_cases hij : i = j
    · subst hij
      rw [if_pos rfl]
      apply andi_diag
      obtain ⟨t, ht, hw⟩ := word_thr
      rw [hw]
      unfold Ideal.cmp
      simp only
      rw [decide_eq_false (diag_not_lt x0 hfin f hnorm i t ht)]
      rfl
    · rw [if_neg hij]
      apply andi_offdiag
  · funext i j
    unfold ngK ngR
    rw [hcmp, xori_one]

end Cert.MSL

end
-- ==== Proof.LiveRows.lean ====
/-
  The two readings of a "live" row agree.

  Every term of the two exponential sums of a row is either the word 0 (entry not kept) or an exponential (entry
  kept), so each sum is a sum of 4096 nonnegative extended reals and is positive exactly when one of its terms is.
  A kept positive is a valid positive, so its similarity is below 0.99999 and is not +∞; hence −2 (s − 1/2) is not −∞
  and its exponential is positive.  A kept negative has s + margin above the smallest valid positive, so s is not −∞;
  hence 40 (s − 1/2) is not −∞ and its exponential is positive.  So "the sum is positive" is "some entry is kept",
  which is what the fold of `or` over the row's mask computes.
-/
import proofs.«140503_j48515950576321_2_alg».proof.Proof.Spec

noncomputable section

open scoped BigOperators

namespace Cert.MSL

open Idealize.ShloMosaic

/-! ## The constants -/

/-- The f32 word `0xC0000000` is −2. -/
theorem ofBits_negTwo_f32 : Ideal.ofBits .f32 0xC0000000#32 = ((-2 : ℝ) : EReal) := by
  simp [Ideal.ofBits, Ideal.ieee]
  norm_cast
  norm_num

/-- The f32 word `0x3F000000` is 1/2. -/
theorem ofBits_half_f32 : Ideal.ofBits .f32 0x3F000000#32 = ((1/2 : ℝ) : EReal) := by
  simp [Ideal.ofBits, Ideal.ieee]
  norm_cast
  norm_num

/-- The f32 word `0x42200000` is 40. -/
theorem ofBits_forty_f32 : Ideal.ofBits .f32 0x42200000#32 = ((40 : ℝ) : EReal) := by
  simp [Ideal.ofBits, Ideal.ieee]
  norm_cast
  norm_num

/-! ## One-bit masks -/

theorem ofBool_decide_eq_one (p : Prop) [Decidable p] : BitVec.ofBool (decide p) = 1#1 ↔ p := by
  by_cases h : p <;> simp [h]

/-- `x > y` as a mask. -/
theorem cmp_ogt_eq_one (x y : EReal) : Ideal.cmp .ogt x y = 1#1 ↔ y < x := by
  simp only [Ideal.cmp]
  exact ofBool_decide_eq_one _

/-- `x > 0` as a mask, with the zero written as its f32 word. -/
theorem cmp_ogt_zero_eq_one (x : EReal) :
    Ideal.cmp .ogt x (Ideal.ofBits .f32 0x00000000#32) = 1#1 ↔ 0 < x := by
  rw [cmp_ogt_eq_one, Ideal.ofBits_zero_f32]

/-- Two one-bit masks that are set together are equal. -/
theorem bv1_ext : ∀ a b : BitVec 1, (a = 1#1 ↔ b = 1#1) → a = b := by decide

theorem ori_eq_one : ∀ a b : BitVec 1, IntOp.ori a b = 1#1 ↔ a = 1#1 ∨ b = 1#1 := by decide

theorem andi_eq_one : ∀ a b : BitVec 1, IntOp.andi a b = 1#1 ↔ a = 1#1 ∧ b = 1#1 := by decide

/-- The fold of `or` from 0 over a finite family of one-bit masks is set exactly when a member is. -/
theorem fold_ori_eq_one {ι : Type*} (t : Finset ι) (mk : ι → BitVec 1) :
    t.fold IntOp.ori 0#1 mk = 1#1 ↔ ∃ j ∈ t, mk j = 1#1 := by
  classical
  induction t using Finset.induction_on with
  | empty => simp
  | insert a t ha ih =>
    rw [Finset.fold_insert ha, ori_eq_one, ih]
    constructor
    · rintro (h | ⟨j, hj, h⟩)
      · exact ⟨a, Finset.mem_insert_self a t, h⟩
      · exact ⟨j, Finset.mem_insert_of_mem hj, h⟩
    · rintro ⟨j, hj, h⟩
      rcases Finset.mem_insert.mp hj with rfl | hj
      · exact Or.inl h
      · exact Or.inr ⟨j, hj, h⟩

theorem anyOf_eq_one (mk : Fin 4096 → BitVec 1) : anyOf mk = 1#1 ↔ ∃ j, mk j = 1#1 := by
  unfold anyOf
  rw [fold_ori_eq_one]
  simp only [Finset.mem_univ, true_and]

/-! ## Exponentials -/

theorem exp_nonneg (x : EReal) : 0 ≤ Ideal.exp x := by
  induction x using EReal.rec with
  | bot => simp
  | top => simp
  | coe r => rw [Ideal.exp_coe]; exact EReal.coe_nonneg.mpr (Real.exp_pos r).le

theorem exp_pos {x : EReal} (h : x ≠ ⊥) : 0 < Ideal.exp x := by
  induction x using EReal.rec with
  | bot => exact absurd rfl h
  | top => simp
  | coe r => rw [Ideal.exp_coe]; exact EReal.coe_pos.mpr (Real.exp_pos r)

/-- −2 (x − 1/2) is −∞ only at x = +∞. -/
theorem negTwo_mul_ne_bot {x : EReal} (h : x ≠ ⊤) :
    ((-2 : ℝ) : EReal) * (x - ((1/2 : ℝ) : EReal)) ≠ ⊥ := by
  induction x using EReal.rec with
  | bot => rw [EReal.bot_sub, EReal.coe_mul_bot_of_neg (by norm_num)]; simp
  | top => exact absurd rfl h
  | coe r => rw [← EReal.coe_sub, ← EReal.coe_mul]; exact EReal.coe_ne_bot _

/-- 40 (x − 1/2) is −∞ only at x = −∞. -/
theorem forty_mul_ne_bot {x : EReal} (h : x ≠ ⊥) :
    ((40 : ℝ) : EReal) * (x - ((1/2 : ℝ) : EReal)) ≠ ⊥ := by
  induction x using EReal.rec with
  | bot => exact absurd rfl h
  | top => rw [EReal.top_sub_coe, EReal.coe_mul_top_of_pos (by norm_num)]; simp
  | coe r => rw [← EReal.coe_sub, ← EReal.coe_mul]; exact EReal.coe_ne_bot _

/-! ## A masked nonnegative term -/

theorem select_nonneg (c : BitVec 1) (t : EReal) (ht : 0 ≤ t) :
    0 ≤ Scalar.select c t (Ideal.ofBits .f32 0x00000000#32) := by
  unfold Scalar.select
  split
  · exact ht
  · rw [Ideal.ofBits_zero_f32]

/-- A masked term that is positive whenever its mask is set is positive exactly when its mask is set. -/
theorem select_pos_iff (c : BitVec 1) (t : EReal) (ht : c = 1#1 → 0 < t) :
    0 < Scalar.select c t (Ideal.ofBits .f32 0x00000000#32) ↔ c = 1#1 := by
  unfold Scalar.select
  split
  · next h => exact ⟨fun _ => h, fun _ => ht h⟩
  · next h =>
    rw [Ideal.ofBits_zero_f32]
    exact ⟨fun h0 => absurd h0 (lt_irrefl _), fun h1 => absurd h1 h⟩

section Row

variable (s : Fin 4096 → Fin 4096 → EReal) (pv ng : Fin 4096 → Fin 4096 → BitVec 1)

theorem posTerm_nonneg (i j : Fin 4096) : 0 ≤ posTerm s i j := exp_nonneg _

theorem negTerm_nonneg (i j : Fin 4096) : 0 ≤ negTerm s i j := exp_nonneg _

theorem posTerm_pos {i j : Fin 4096} (h : s i j ≠ ⊤) : 0 < posTerm s i j := by
  unfold posTerm
  rw [ofBits_negTwo_f32, ofBits_half_f32]
  exact exp_pos (negTwo_mul_ne_bot h)

theorem negTerm_pos {i j : Fin 4096} (h : s i j ≠ ⊥) : 0 < negTerm s i j := by
  unfold negTerm
  rw [ofBits_forty_f32, ofBits_half_f32]
  exact exp_pos (forty_mul_ne_bot h)

/-- The positives' sum is positive exactly when some positive is kept. -/
theorem posSum_pos_iff (hpv : ∀ i j, pv i j = 1#1 → s i j < Ideal.ofBits .f32 0x3F7FFF58#32) (i : Fin 4096) :
    0 < posSum s pv ng i ↔ ∃ j, posKeep s pv ng i j = 1#1 := by
  unfold posSum
  rw [Finset.sum_pos_iff_of_nonneg (fun j _ => select_nonneg _ _ (posTerm_nonneg s i j))]
  simp only [Finset.mem_univ, true_and]
  refine exists_congr fun j => select_pos_iff _ _ fun h => ?_
  have hp : pv i j = 1#1 := ((andi_eq_one _ _).mp h).1
  exact posTerm_pos s (ne_top_of_lt (hpv i j hp))

/-- The negatives' sum is positive exactly when some negative is kept. -/
theorem negSum_pos_iff (i : Fin 4096) :
    0 < negSum s pv ng i ↔ ∃ j, negKeep s pv ng i j = 1#1 := by
  unfold negSum
  rw [Finset.sum_pos_iff_of_nonneg (fun j _ => select_nonneg _ _ (negTerm_nonneg s i j))]
  simp only [Finset.mem_univ, true_and]
  refine exists_congr fun j => select_pos_iff _ _ fun h => ?_
  have hc := ((andi_eq_one _ _).mp h).2
  have hlt := (cmp_ogt_eq_one _ _).mp hc
  have hne : s i j ≠ ⊥ := by
    intro hb
    rw [hb, EReal.bot_add] at hlt
    exact not_lt_bot hlt
  exact negTerm_pos s hne

theorem cmp_posSum_eq_anyOf (hpv : ∀ i j, pv i j = 1#1 → s i j < Ideal.ofBits .f32 0x3F7FFF58#32) (i : Fin 4096) :
    Ideal.cmp .ogt (posSum s pv ng i) (Ideal.ofBits .f32 0x00000000#32)
      = anyOf fun j => posKeep s pv ng i j :=
  bv1_ext _ _ (by rw [cmp_ogt_zero_eq_one, posSum_pos_iff s pv ng hpv i, anyOf_eq_one])

theorem cmp_negSum_eq_anyOf (i : Fin 4096) :
    Ideal.cmp .ogt (negSum s pv ng i) (Ideal.ofBits .f32 0x00000000#32)
      = anyOf fun j => negKeep s pv ng i j :=
  bv1_ext _ _ (by rw [cmp_ogt_zero_eq_one, negSum_pos_iff s pv ng i, anyOf_eq_one])

/-- Both sums positive, or some positive and some negative kept: the same rows are live. -/
theorem lossSums_eq_lossAny (hpv : ∀ i j, pv i j = 1#1 → s i j < Ideal.ofBits .f32 0x3F7FFF58#32) :
    lossSums s pv ng = lossAny s pv ng := by
  funext i
  unfold lossSums lossAny
  rw [cmp_posSum_eq_anyOf s pv ng hpv i, cmp_negSum_eq_anyOf s pv ng i]

end Row

end Cert.MSL

end
-- ==== Proof.PreDecode.lean ====
/-
  The precondition, read back at the extended-real reading of floats. The printed predicate is the conjunction of
  three reductions by "and" over all axes: |x0| < +inf at every index, |x1| < +inf at every index, and x1 = 0.0 or
  x1 = 1.0 at every index. A reduction by "and" that comes out 1 met a 1 at every index; |x| < +inf over the extended
  reals says x is a real number (neither infinity); the two words compared against denote 0 and 1.
-/
import proofs.«140503_j48515950576321_2_alg».proof.Pre_finite_inputs
import Idealize.ShloMosaic.PureOps.Ideal
import Idealize.ShloMosaic.Lib.ReduceAll
import Idealize.ShloMosaic.Lib.ValueIdx

noncomputable section

namespace Cert.PreDecode

open Idealize.ShloMosaic Cert.Pre_finite_inputs

/-- The rank-0 shape has one index. -/
instance : Subsingleton S_.Idx := ⟨fun a b => funext fun d => d.elim0⟩

/-- The word 0x7F800000 denotes +inf. -/
theorem word_inf : Ideal.ofBits .f32 0x7F800000#32 = (⊤ : EReal) := by
  simp [Ideal.ofBits, Ideal.ieee]

/-- The word 0x00000000 denotes 0. -/
theorem word_zero : Ideal.ofBits .f32 0x00000000#32 = (0 : EReal) := by
  simp [Ideal.ofBits, Ideal.ieee]

/-- The word 0x3F800000 denotes 1. -/
theorem word_one : Ideal.ofBits .f32 0x3F800000#32 = (1 : EReal) := by
  simp [Ideal.ofBits, Ideal.ieee]
  norm_cast
  norm_num

theorem ofBool_eq_one (b : Bool) : BitVec.ofBool b = 1#1 ↔ b = true := by cases b <;> decide

/-- |x| < +inf over the extended reals: x is a real number. -/
theorem real_of_abs_lt_top (x : EReal) (h : Ideal.cmp .olt (max x (-x)) ⊤ = 1#1) : ∃ r : ℝ, x = (r : EReal) := by
  unfold Ideal.cmp at h
  rw [ofBool_eq_one] at h
  simp only [decide_eq_true_eq] at h
  induction x using EReal.rec with
  | bot => simp at h
  | coe r => exact ⟨r, rfl⟩
  | top => simp at h

/-- x = 0 or x = 1, from the two comparisons joined by "or". -/
theorem zero_or_one (x : EReal) (h : IntOp.ori (Ideal.cmp .oeq x 0) (Ideal.cmp .oeq x 1) = 1#1) : x = 0 ∨ x = 1 := by
  rw [IntOp.ori_eq_one] at h
  unfold Ideal.cmp at h
  simp only [ofBool_eq_one, decide_eq_true_eq] at h
  exact h

theorem decode [Cert.Pre_finite_inputs.Facts] (x0 : FVec Ideal S4096x512 .f32) (x1 : FVec Ideal S4096x100 .f32)
    (h : Cert.Pre_finite_inputs.fn (F := Ideal) x0 x1 = fun _ => 1#1) :
    (∀ i, ∃ r : ℝ, x0 i = (r : EReal)) ∧ (∀ i, x1 i = 0 ∨ x1 i = 1) := by
  have e := congrFun h ValueIdx.ix0
  dsimp only [Cert.Pre_finite_inputs.fn] at e
  simp only [andi, IntOp.andi_eq_one] at e
  obtain ⟨⟨e0, e1⟩, e2⟩ := e
  refine ⟨fun i => ?_, fun i => ?_⟩
  · have a := Host.reduce_andi_all _ _ _ _ _ e0 i
    simp only [cmpf, Host.absf, broadcastInDim, constant] at a
    exact real_of_abs_lt_top _ (by rw [← word_inf]; exact a)
  · have a := Host.reduce_andi_all _ _ _ _ _ e2 i
    simp only [ori, cmpf, broadcastInDim, constant] at a
    exact zero_or_one _ (by rw [← word_zero, ← word_one]; exact a)

end Cert.PreDecode

end
-- ==== Proof.lean ====
/-
  The multi-similarity loss: a kernel that tiles the 4096 query rows into 32 blocks against a jnp reference.

  Both programs L2-normalise the feature rows on the host (x / sqrt(∑ x²)), form the cosine similarities
  s(i,j) = ∑ₖ f(i,k) f(j,k) and the label products ℓ(i,j), mine the hard pairs of every row (the smallest valid positive,
  the negatives within the margin of it, the largest such negative, the positives within the margin of that), sum
  exp(−2(s − ½)) over the kept positives and exp(40(s − ½)) over the kept negatives, and average
  log(1+·)/2 + log(1+·)/40 over the rows that have both.  They differ in three places, and the extended-real reading
  makes each harmless under the stated precondition (finite features, labels with entries 0 or 1):
    • the kernel pads the label rows with 28 zeros (0·0 = 0 adds nothing to a product) and thresholds the label product
      at ½ where the reference thresholds at 0 — a product of 0/1 rows is a natural number, above ½ exactly when above 0;
    • the kernel drops the diagonal by comparing indices, the reference by the test s < 0.99999 — for a row of finite
      features s(i,i) is exactly 1 (or +∞ for a zero row, whose 0/0 reads −∞), never below 0.99999;
    • the kernel calls a row live when both exponential sums are positive, the reference when some positive and some
      negative is kept — every kept term is exp of something other than −∞, hence positive, and the others are 0.
  The kernel side is read off the run of the pipeline (two windows on the features, two on the labels, one output
  block of 128 row losses per grid point, then the host's mean); the reference side off its generated run.
-/
import proofs.«140503_j48515950576321_2_alg».proof.Defs
import proofs.«140503_j48515950576321_2_alg».proof.Proof.Gen.Kernel
import proofs.«140503_j48515950576321_2_alg».proof.Proof.Gen.KernelIdeal
import proofs.«140503_j48515950576321_2_alg».proof.Proof.Gen.ReferenceIdeal
import proofs.«140503_j48515950576321_2_alg».proof.Proof.Gen.Pre_finite_inputs
import proofs.«140503_j48515950576321_2_alg».proof.Proof.Gen.ReferenceIdeal.Read
import proofs.«140503_j48515950576321_2_alg».proof.Proof.BitsLaunch
import proofs.«140503_j48515950576321_2_alg».proof.Proof.IdealValue
import proofs.«140503_j48515950576321_2_alg».proof.Proof.HeadRead
import proofs.«140503_j48515950576321_2_alg».proof.Proof.RefValue
import proofs.«140503_j48515950576321_2_alg».proof.Proof.Masks
import proofs.«140503_j48515950576321_2_alg».proof.Proof.LiveRows
import proofs.«140503_j48515950576321_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Region.frame m ρ
theorem frame_pi : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- A pair the reference counts as a valid positive has similarity below 0.99999. -/
theorem pvR_lt (s ld : Fin 4096 → Fin 4096 → EReal) (i j : Fin 4096) (h : Cert.MSL.pvR s ld i j = 1#1) :
    s i j < Ideal.ofBits .f32 0x3F7FFF58#32 := by
  unfold Cert.MSL.pvR at h
  have h2 := ((Cert.MSL.andi_eq_one _ _).mp h).2
  simp only [Ideal.cmp] at h2
  exact (Cert.MSL.ofBool_decide_eq_one _).mp h2

/-- Under the precondition the kernel's loss of the arrays its region finds is the reference's loss of the arguments. -/
theorem loss_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.MSL.kernelLoss (Cert.KernelIdeal.Region.V m c Cert.KernelIdeal.main_v2) (Cert.KernelIdeal.Region.V m c Cert.KernelIdeal.main_v4)
      = Cert.MSL.referenceLoss
          (Cert.ReferenceIdeal.Read.val_main_v2 (F := Ideal) (m ((c.tc : Thread Cert.KernelIdeal.nD Cert.KernelIdeal.τ).loc Cert.KernelIdeal.main_arg0)))
          (m ((c.tc : Thread Cert.KernelIdeal.nD Cert.KernelIdeal.τ).loc Cert.KernelIdeal.main_arg1)) := by
  obtain ⟨hfin, hbin⟩ := Cert.PreDecode.decode _ _ (hpre c)
  have hf : (Cert.KernelIdeal.Region.V m c Cert.KernelIdeal.main_v2 : Cert.KernelIdeal.S4096x512.Idx → EReal)
      = Cert.ReferenceIdeal.Read.val_main_v2 (F := Ideal) (m ((c.tc : Thread Cert.KernelIdeal.nD Cert.KernelIdeal.τ).loc Cert.KernelIdeal.main_arg0)) :=
    funext fun y => by
      obtain ⟨i, k, rfl⟩ : ∃ (i : Fin 4096) (k : Fin 512), y = ix2 i k := ⟨y 0, y 1, eq_ix2 y⟩
      rw [Cert.KernelIdeal.HeadRead.features_at, Cert.RefValue.normalised]
  obtain ⟨hpv, hng⟩ := Cert.MSL.masks_agree _ hfin (Cert.KernelIdeal.Region.V m c Cert.KernelIdeal.main_v2)
    (fun i k => Cert.KernelIdeal.HeadRead.features_at m c i k) _ hbin (Cert.KernelIdeal.Region.V m c Cert.KernelIdeal.main_v4)
    (fun i k => Cert.KernelIdeal.HeadRead.labels_at m c i k)
  unfold Cert.MSL.kernelLoss Cert.MSL.referenceLoss
  rw [hpv, hng, Cert.MSL.lossSums_eq_lossAny _ _ _ (pvR_lt _ _), hf]

/-- The two idealized programs, run from memories that agree on the arguments, end with equal results. -/
theorem algebraic : Cert.algebraic_KernelIdeal_ReferenceIdeal := by
  intro m ρ m' ρ' hpre hagree
  refine ⟨fun c => fun _ => Cert.MSL.kernelLoss (Cert.KernelIdeal.Region.V m c Cert.KernelIdeal.main_v2)
    (Cert.KernelIdeal.Region.V m c Cert.KernelIdeal.main_v4), Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.RefValue.result_eq, (hagree c).1, (hagree c).2]
  exact funext fun _ => (loss_eq m hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
